-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x1024 .f32) (main_arg1 : FVec F S3072x1024 .f32) (main_arg2 : FVec F S3072 .f32) (main_arg3 : FVec F S1024x1024 .f32) (main_arg4 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩
abbrev S1x3072 : Shape := ⟨2, ![1, 3072]⟩
abbrev S8x1024x3072 : Shape := ⟨3, ![8, 1024, 3072]⟩
abbrev S1x1024x128 : Shape := ⟨3, ![1, 1024, 128]⟩
abbrev S1024x128 : Shape := ⟨2, ![1024, 128]⟩
abbrev S1024x64 : Shape := ⟨2, ![1024, 64]⟩
abbrev S1024x1 : Shape := ⟨2, ![1024, 1]⟩
abbrev S512x1024 : Shape := ⟨2, ![512, 1024]⟩
abbrev S1x1024 : Shape := ⟨2, ![1, 1024]⟩

abbrev nBuf : Space → Nat
  | .hbm => 14
  | .vmem => 20
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S3072x1024, .bf16⟩
  | .hbm, ⟨7, _⟩ => ⟨S1024x1024, .bf16⟩
  | .hbm, ⟨8, _⟩ => ⟨S8192x3072, .bf16⟩
  | .hbm, ⟨9, _⟩ => ⟨S8x1024x3072, .bf16⟩
  | .hbm, ⟨10, _⟩ => ⟨S8x1024x1024, .bf16⟩
  | .hbm, ⟨11, _⟩ => ⟨S8192x1024, .bf16⟩
  | .hbm, ⟨12, _⟩ => ⟨S8192x1024, .f32⟩
  | .hbm, ⟨13, _⟩ => ⟨S8x1024x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S3072, .f32⟩
  | .local _ .vmem, ⟨4, _⟩ => ⟨S256x3072, .bf16⟩
  | .local _ .vmem, ⟨5, _⟩ => ⟨S256x3072, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024, .f32⟩
  | .local _ .vmem, ⟨18, _⟩ => ⟨S512x1024, .f32⟩
  | .local _ .vmem, ⟨19, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x1024x1024_S8192x1024 : S8x1024x1024.ShapeCasts S8192x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S8192x3072_S8x1024x3072 : S8192x3072.ShapeCasts S8x1024x3072
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S8x1024x1024 : S8192x1024.ShapeCasts S8x1024x1024
  dot_S256x1024_S3072x1024_S256x3072_1_1_0_0_n_n_wf : DotDims.WF S256x1024 S3072x1024 S256x3072 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S8192x3072.size a
  hwx0_3 : ∀ i : grid0.Coords, EltTy.bits .bf16 = 32 ∨ (Rect.block (s := S8192x3072) S256x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x3072.size a
  hwx1_0 : ∀ i : grid1.Coords, EltTy.bits .bf16 = 32 ∨ (Rect.block (s := S8x1024x3072) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x3072.size a
  hwx1_1 : ∀ i : grid1.Coords, EltTy.bits .bf16 = 32 ∨ (Rect.block (s := S8x1024x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x3072.size a
  hwx1_2 : ∀ i : grid1.Coords, EltTy.bits .bf16 = 32 ∨ (Rect.block (s := S8x1024x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x1024.size a
  hwx1_3 : ∀ i : grid1.Coords, EltTy.bits .bf16 = 32 ∨ (Rect.block (s := S8x1024x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8x1024x3072 : Shape := ⟨3, ![8, 1024, 3072]⟩
abbrev S1x1x3072 : Shape := ⟨3, ![1, 1, 3072]⟩
abbrev S8x1024x16x64 : Shape := ⟨4, ![8, 1024, 16, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x1024x3072, .f32⟩
  | .hbm, ⟨6, _⟩ => ⟨S1x1x3072, .f32⟩
  | .hbm, ⟨7, _⟩ => ⟨S8x1024x3072, .f32⟩
  | .hbm, ⟨8, _⟩ => ⟨S8x1024x3072, .f32⟩
  | .hbm, ⟨9, _⟩ => ⟨S8x1024x1024, .f32⟩
  | .hbm, ⟨10, _⟩ => ⟨S8x1024x1024, .f32⟩
  | .hbm, ⟨11, _⟩ => ⟨S8x1024x1024, .f32⟩
  | .hbm, ⟨12, _⟩ => ⟨S8x1024x16x64, .f32⟩
  | .hbm, ⟨13, _⟩ => ⟨S8x16x1024x64, .f32⟩
  | .hbm, ⟨14, _⟩ => ⟨S8x1024x16x64, .f32⟩
  | .hbm, ⟨15, _⟩ => ⟨S8x16x1024x64, .f32⟩
  | .hbm, ⟨16, _⟩ => ⟨S8x1024x16x64, .f32⟩
  | .hbm, ⟨17, _⟩ => ⟨S8x16x1024x64, .f32⟩
  | .hbm, ⟨18, _⟩ => ⟨S8x16x1024x1024, .f32⟩
  | .hbm, ⟨19, _⟩ => ⟨S_, .f32⟩
  | .hbm, ⟨20, _⟩ => ⟨S8x16x1024x1024, .f32⟩
  | .hbm, ⟨21, _⟩ => ⟨S8x16x1024x1024, .f32⟩
  | .hbm, ⟨22, _⟩ => ⟨S_, .f32⟩
  | .hbm, ⟨23, _⟩ => ⟨S8x16x1024, .f32⟩
  | .hbm, ⟨24, _⟩ => ⟨S_, .f32⟩
  | .hbm, ⟨25, _⟩ => ⟨S8x16x1024, .f32⟩
  | .hbm, ⟨26, _⟩ => ⟨S8x16x1024, .f32⟩
  | .hbm, ⟨27, _⟩ => ⟨S8x16x1024x1, .f32⟩
  | .hbm, ⟨28, _⟩ => ⟨S8x16x1024x1024, .f32⟩
  | .hbm, ⟨29, _⟩ => ⟨S8x16x1024x1024, .f32⟩
  | .hbm, ⟨30, _⟩ => ⟨S8x16x1024x1024, .f32⟩
  | .hbm, ⟨31, _⟩ => ⟨S_, .f32⟩
  | .hbm, ⟨32, _⟩ => ⟨S8x16x1024, .f32⟩
  | .hbm, ⟨33, _⟩ => ⟨S8x16x1024x1, .f32⟩
  | .hbm, ⟨34, _⟩ => ⟨S8x16x1024x1024, .f32⟩
  | .hbm, ⟨35, _⟩ => ⟨S8x16x1024x1024, .f32⟩
  | .hbm, ⟨36, _⟩ => ⟨S8x16x1024x64, .f32⟩
  | .hbm, ⟨37, _⟩ => ⟨S8x1024x16x64, .f32⟩
  | .hbm, ⟨38, _⟩ => ⟨S8x1024x1024, .f32⟩
  | .hbm, ⟨39, _⟩ => ⟨S8x1024x1024, .f32⟩
  | .hbm, ⟨40, _⟩ => ⟨S1x1x1024, .f32⟩
  | .hbm, ⟨41, _⟩ => ⟨S8x1024x1024, .f32⟩
  | .hbm, ⟨42, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x1024x3072_0_1_2 : S1x1x3072.BroadcastsInDim S8x1024x3072 (![0, 1, 2] : Fin 3 → Fin S8x1024x3072.rank)
  slices_S8x1024x3072_S8x1024x1024_0_0_0 : S8x1024x3072.Slices ![0, 0, 0] S8x1024x1024
  slices_S8x1024x3072_S8x1024x1024_0_0_1024 : S8x1024x3072.Slices ![0, 0, 1024] S8x1024x1024
  slices_S8x1024x3072_S8x1024x1024_0_0_2048 : S8x1024x3072.Slices ![0, 0, 2048] S8x1024x1024
  shapeCasts_S8x1024x1024_S8x1024x16x64 : S8x1024x1024.ShapeCasts S8x1024x16x64
  transposes_S8x1024x16x64_S8x16x1024x64_0_2_1_3 : S8x1024x16x64.Transposes [0, 2, 1, 3] S8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.KData.lean ====
/-
  The three kernel regions of the program as pipelines with proof data, at any float instance.

  Region 0 (the input projection): 32 row blocks of 256 rows; each point reads a row block of the flattened input,
  the whole weight matrix and the whole bias, and writes a row block of 3072 columns.
  Region 1 (the attention): 8 × 8 points (batch, pair of heads); each point reads three column blocks of 128 lanes of
  ONE array (queries, keys, values of a pair of heads) and writes the pair's 128 output lanes.
  Region 2 (the output projection): 16 row blocks of 512 rows against the whole second weight matrix and bias.

  Per region: a window's block at a point read off the array the region finds, what the body's one store leaves in
  the output window's buffer, and the proof data (every input buffer keeps its block, the output buffer holds the
  store's value, nothing is owed, the invariant is the class invariant).  In region 1 the three input windows lie on
  one array, so each holds a proper share of it.
-/
import proofs.«147643_j52802327937631_2_alg».proof.Proof.Gen.Kernel.Launch
import proofs.«147643_j52802327937631_2_alg».proof.Proof.Gen.Kernel.Skeleton
import proofs.«147643_j52802327937631_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the core's buffer contents when a region is entered
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S256x1024 := Rect.unit (s := S256x1024) ![0, 0] S256x1024.size inb_S256x1024_S256x1024_0_0
abbrev r0_w : Rect S3072x1024 := Rect.unit (s := S3072x1024) ![0, 0] S3072x1024.size inb_S3072x1024_S3072x1024_0_0
abbrev r0_b : Rect S3072 := Rect.unit (s := S3072) ![0] S3072.size inb_S3072_S3072_0
abbrev r0_o : Rect S256x3072 := Rect.unit (s := S256x3072) ![0, 0] S256x3072.size inb_S256x3072_S256x3072_0_0

/-- The output window's buffer after the body: the one store's value, a function of the three input blocks. -/
def out0_3 (x0 : Vec F S256x1024 .f32) (x1 : Vec F S3072x1024 .bf16) (x2 : Vec F S3072 .f32) : Vec F S256x3072 .bf16 :=
  View.canon [⟨r0_o, k0_pay1 (View.ld x0 r0_x) (View.ld x1 r0_w) (View.ld x2 r0_b)⟩]

theorem cover0_3 (p0 : Vec F S256x3072 .bf16) (y : S256x3072.Idx) :
    ∃ pc ∈ ([⟨r0_o, p0⟩] : List (View.Piece (Elt F) S256x3072 .bf16)), y ∈ pc.1.set :=
  View.cover_of_tiled [⟨r0_o, p0⟩] S256x3072.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S1x1024x128 := Rect.unit (s := S1x1024x128) ![0, 0, 0] S1x1024x128.size inb_S1x1024x128_S1x1024x128_0_0_0

/-- The output window's buffer after the body: the one store's value, a function of the query, key and value blocks. -/
def out1_3 (x0 x1 x2 : Vec F S1x1024x128 .bf16) : Vec F S1x1024x128 .bf16 :=
  View.canon [⟨r1, k1_pay1 (k1_pay5 (View.ld x0 r1) (View.ld x1 r1) (View.ld x2 r1)) (k1_pay6 (View.ld x2 r1))
    (k1_pay7 (View.ld x0 r1) (View.ld x1 r1)) (constant S1024x64 .f32 0x00000000#32)⟩]

theorem cover1_3 (p0 : Vec F S1x1024x128 .bf16) (y : S1x1024x128.Idx) :
    ∃ pc ∈ ([⟨r1, p0⟩] : List (View.Piece (Elt F) S1x1024x128 .bf16)), y ∈ pc.1.set :=
  View.cover_of_tiled [⟨r1, p0⟩] S1x1024x128.size (by rfl) y

/-- The three input windows' shares of the one array they read: a half, a quarter, a quarter. -/
def q1 : Fin cfg1.W → PosShare TreeShare
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1024 := Rect.unit (s := S1024) ![0] S1024.size inb_S1024_S1024_0

/-- The output window's buffer after the body: the one store's value, a function of the three input blocks. -/
def out2_3 (x0 : Vec F S512x1024 .bf16) (x1 : Vec F S1024x1024 .bf16) (x2 : Vec F S1024 .f32) : Vec F S512x1024 .f32 :=
  View.canon [⟨r2_x, k2_pay1 (View.ld x0 r2_x) (View.ld x1 r2_w) (View.ld x2 r2_b)⟩]

theorem cover2_3 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.KBody0.lean ====
/-
  The body obligation of region 0 (the input projection), at any float instance.

  At every grid point the three input windows' staging buffers hold their blocks of the arrays the region finds
  (the row block is fetched at every point; the weight matrix and the bias are fetched once and stay in place),
  and the body, run on those buffers, leaves the inputs as they were and the output buffer at the value of its
  one store: the row block times the transposed weight matrix, plus the bias, in the narrow format.
-/
import proofs.«147643_j52802327937631_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input windows' buffers at a point -/

/-- The row-block window's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window's buffer holds the whole matrix at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias window's buffer holds the whole bias at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's triple -/

set_option maxHeartbeats 1000000 in
/-- The body on whole staging buffers, the inputs' at contents `x0 x1 x2` and the output's at anything, runs to the
    continuation holding the inputs as they were and the output at `out0_3 x0 x1 x2`: the one store covers the
    whole output buffer. -/
theorem sound_kernel0 (c : Dev nD) (E : Set ℕ) (i : grid0.Coords)
    (arg1 : Memref sig .tc .vmem S256x1024 .f32) (harg1 : arg1.IsWhole)
    (arg2 : Memref sig .tc .vmem S3072x1024 .bf16) (harg2 : arg2.IsWhole)
    (arg3 : Memref sig .tc .vmem S3072 .f32) (harg3 : arg3.IsWhole)
    (arg4 : Memref sig .tc .vmem S256x3072 .bf16) (harg4 : arg4.IsWhole)
    (x0 : Vec F S256x1024 .f32) (x1 : Vec F S3072x1024 .bf16) (x2 : Vec F S3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__linear_resident_kernel i arg1 harg1 arg2 harg2 arg3 harg3 arg4 harg4) K := by
  simp only [cc0__linear_resident_kernel_eq_skeleton]; unfold cc0__linear_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, what the core owes, and every window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns: the invariant and the core's debt at the next point, and every buffer at what the body
    leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The body obligation of region 1 (the attention), at any float instance.

  At every grid point (a batch and a pair of heads) the three input windows' staging buffers hold the query, key and
  value column blocks of the one array the region finds, each fetched at every point, and the body, run on those
  buffers, leaves the inputs as they were and the output buffer at the value of its one store: for each of the
  pair's two heads the normalized exponentials of the scaled query-key products times the values, the two heads'
  results side by side.
-/
import proofs.«147643_j52802327937631_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input windows' buffers at a point -/

/-- The query window's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The key window's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The value window's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The body on whole staging buffers, the inputs' at contents `x0 x1 x2` and the output's at anything, runs to the
    continuation holding the inputs as they were and the output at `out1_3 x0 x1 x2`: the body's first part reads
    the three inputs and returns the first head's result and what the second head's needs, and the one store
    covers the whole output buffer. -/
theorem sound_kernel1 (c : Dev nD) (E : Set ℕ) (i : grid1.Coords)
    (arg2 : Memref sig .tc .vmem S1x1024x128 .bf16) (harg2 : arg2.IsWhole)
    (arg3 : Memref sig .tc .vmem S1x1024x128 .bf16) (harg3 : arg3.IsWhole)
    (arg4 : Memref sig .tc .vmem S1x1024x128 .bf16) (harg4 : arg4.IsWhole)
    (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out1_3 x0 x1 x2)) -∗ K ⟨⟩))
      ⊢ wp frame (wpE (defs₀ (F := F)) Variants.none c none) E
          (cc1__attention_kernel i arg2 harg2 arg3 harg3 arg4 harg4 arg5 harg5) K := by
  simp only [cc1__attention_kernel_eq_skeleton]; unfold cc1__attention_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`: the invariant, what the core owes, and every window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns: the invariant and the core's debt at the next point, and every buffer at what the body
    leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  The body obligation of region 2 (the output projection), at any float instance.

  At every grid point the three input windows' staging buffers hold their blocks of the arrays the region finds
  (the row block is fetched at every point; the weight matrix and the bias are fetched once and stay in place),
  and the body, run on those buffers, leaves the inputs as they were and the output buffer at the value of its
  one store: the row block times the transposed weight matrix, plus the bias.
-/
import proofs.«147643_j52802327937631_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input windows' buffers at a point -/

/-- The row-block window's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight window's buffer holds the whole matrix at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The bias window's buffer holds the whole bias at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

set_option maxHeartbeats 1000000 in
/-- The body on whole staging buffers, the inputs' at contents `x0 x1 x2` and the output's at anything, runs to the
    continuation holding the inputs as they were and the output at `out2_3 x0 x1 x2`: the one store covers the
    whole output buffer. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out2_3 x0 x1 x2)) -∗ K ⟨⟩))
      ⊢ wp frame (wpE (defs₀ (F := F)) Variants.none c none) E
          (cc2__linear_resident_kernel i arg1 harg1 arg2 harg2 arg3 harg3 arg4 harg4) K := by
  simp only [cc2__linear_resident_kernel_eq_skeleton]; unfold cc2__linear_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`: the invariant, what the core owes, and every window's current
    buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns: the invariant and the core's debt at the next point, and every buffer at what the body
    leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KShared1.lean ====
/-
  The attention region's windows and the one array three of them read.

  The region's four windows lie on two buffers: the query, key and value windows on the packed projection array, the
  output window on the context array.  The core's unscoped buffers therefore split into those two buffers and the
  rest; the packed array's full share is dealt among the three input windows as a half, a quarter and a quarter, and
  is put together again when the region is left.
-/
import proofs.«147643_j52802327937631_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two buffers behind the four windows. -/
theorem arrImage1 : Finset.univ.image (Pipeline.arrRef spec1) = ([main_v4, main_v5] : List (Ref sig .tc)).toFinset := by decide

theorem share1_0 {c : Dev nD} (dat : Dat τ (Elt F) Unit ℕ (UR sig nD τ) ℕ cfg1 c) (hq : dat.q = q1) : dat.share 0 = fullShare.left := by
  unfold Dat.share; rw [hq]; rfl
theorem share1_1 {c : Dev nD} (dat : Dat τ (Elt F) Unit ℕ (UR sig nD τ) ℕ cfg1 c) (hq : dat.q = q1) : dat.share 1 = fullShare.right.left := by
  unfold Dat.share; rw [hq]; rfl
theorem share1_2 {c : Dev nD} (dat : Dat τ (Elt F) Unit ℕ (UR sig nD τ) ℕ cfg1 c) (hq : dat.q = q1) : dat.share 2 = fullShare.right.right := by
  unfold Dat.share; rw [hq]; rfl
theorem share1_3 {c : Dev nD} (dat : Dat τ (Elt F) Unit ℕ (UR sig nD τ) ℕ cfg1 c) (hq : dat.q = q1) : dat.share 3 = fullShare := by
  unfold Dat.share; rfl

/-- The two buffers whole at the full share are the four windows' arrays at their shares, and conversely: the packed
    array's share is a half beside two quarters. -/
theorem arrays1_iff (c : Dev nD) (V : (b : Ref sig .tc) → Buf (Elt F) ((c : Thread nD τ).loc b))
    (dat : Dat τ (Elt F) Unit ℕ (UR sig nD τ) ℕ cfg1 c) (hq : dat.q = q1)
    (Fa : (w : Fin cfg1.W) → Buf (Elt F) ((cfg1.win w).arr.view.loc (c.tc : Thread nD τ)))
    (hF : ∀ w, Fa w = V (Pipeline.arrRef spec1 w)) :
    (Pipeline.arrBufs spec1 c V : sProp 𝕄) ⊣⊢ dat.arrays Fa := by
  unfold Pipeline.arrBufs Dat.arrays
  rw [bigSep_eq_bigSepL_of_eq [main_v4, main_v5] arrImage1 (by decide), bigSep_W1]
  rw [(arr_whole1 0).set_eq_univ, (arr_whole1 3).set_eq_univ,
    share1_0 dat hq, share1_1 dat hq, share1_2 dat hq, share1_3 dat hq, hF 0, hF 1, hF 2, hF 3]
  show (iprop((c.tc.loc main_v4 ↦{fullShare} V main_v4) ∗ (c.tc.loc main_v5 ↦{fullShare} V main_v5)) : sProp 𝕄) ⊣⊢ _
  have e1 : (c.tc.loc main_v4 ↦{fullShare} V main_v4 : sProp 𝕄)
      ⊢ iprop((c.tc.loc main_v4 ↦{fullShare.left} V main_v4) ∗ (c.tc.loc main_v4 ↦{fullShare.right} V main_v4)) :=
    (pointsTo_share (PosShare.mem_left_op_right fullShare)).1
  have e2 : (c.tc.loc main_v4 ↦{fullShare.right} V main_v4 : sProp 𝕄)
      ⊢ iprop((c.tc.loc main_v4 ↦{fullShare.right.left} V main_v4) ∗ (c.tc.loc main_v4 ↦{fullShare.right.right} V main_v4)) :=
    (pointsTo_share (PosShare.mem_left_op_right fullShare.right)).1
  have e1' : (iprop((c.tc.loc main_v4 ↦{fullShare.left} V main_v4) ∗ (c.tc.loc main_v4 ↦{fullShare.right} V main_v4)) : sProp 𝕄)
      ⊢ (c.tc.loc main_v4 ↦{fullShare} V main_v4) :=
    (pointsTo_share (PosShare.mem_left_op_right fullShare)).2
  have e2' : (iprop((c.tc.loc main_v4 ↦{fullShare.right.left} V main_v4) ∗ (c.tc.loc main_v4 ↦{fullShare.right.right} V main_v4)) : sProp 𝕄)
      ⊢ (c.tc.loc main_v4 ↦{fullShare.right} V main_v4) :=
    (pointsTo_share (PosShare.mem_left_op_right fullShare.right)).2
  refine ⟨?_, ?_⟩
  · iintro ⟨H4, H5⟩
    ihave H := e1 $$ H4
    icases H with ⟨Hl, Hr⟩
    ihave H' := e2 $$ Hr
    icases H' with ⟨Hrl, Hrr⟩
    isplitl [Hl]; · iexact Hl
    isplitl [Hrl]; · iexact Hrl
    isplitl [Hrr]; · iexact Hrr
    iexact H5
  · iintro ⟨Hl, Hrl, Hrr, H5⟩
    ihave Hr := e2' $$ [Hrl Hrr]
    · isplitl [Hrl] <;> iassumption
    ihave H4 := e1' $$ [Hl Hr]
    · isplitl [Hl] <;> iassumption
    isplitl [H4]; · iexact H4
    iexact H5

end Cert.Kernel.Hand

end
-- ==== Proof.LibRegionRecord.lean ====
/-
  A kernel region of a program of several regions, as a segment over "every unscoped buffer of the core held at a
  valuation".

  For a pipeline that prefetches no table and owes no other core anything, whose kernel has no semaphore of its own
  and whose invariant starts from and ends in the class invariant (the scoped buffers no window stages, at some
  contents, and the generator register at some state): given the body's obligation at every point and the valuations
  the region is entered from and leaves — the proof data's arrays read off the first, the arrays after the last point
  read off the second, every other buffer the same in both —, the region is a segment from the first valuation held
  to the second, with the generator register and the core's empty debt riding along. The four entailments are the
  same for every such region: the windows' arrays are split out of the unscoped buffers on entry and put back on exit.
-/
import Idealize.ShloMosaic.Lib.Pipeline.Frame
import Idealize.ShloMosaic.Lib.Pipeline.Regions
import Idealize.ShloMosaic.Lib.Pipeline.RegionsLoop

noncomputable section

namespace Cert.LibRegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

/-- What rides beside the buffers: the generator register at some state and the core owing nothing. -/
abbrev rides (c : Dev nD) : sProp 𝕄 :=
  iprop((∃ r, prngReg c r) ∗ ∃ W, owes (c : Thread nD τ) (0 : CellTallies nD τ sig Unit) W)

set_option backward.isDefEq.respectTransparency.types false in
/-- The region as a segment from `Vin` held to `Vout` held. -/
def ofHeld (cfgs : P → Cfg sig Λ₀) (p : P) (launch : Pipeline.LaunchFacts (nD := nD) (τ := τ) cfgs p)
    (pdats : (q : P) → (c : Dev nD) → Dat τ Val Unit ℕ (UR sig nD τ) ℕ (cfgs q) c)
    (defs₀ : Defs nD τ sig Val Λ₀)
    (hbody : ∀ c, BodyObligation (pdats p c) defs₀ Variants.none () Set.univ)
    (howed : ∀ c t, (pdats p c).owed t = 0)
    (hrec : ∀ c t, (pdats p c).recorded t = Set.univ)
    (hshare : ∀ c w, (pdats p c).share w = fullShare)
    (hin : ∀ c, (Pipeline.ΦA (cfgs p).spec c : sProp 𝕄) ⊢ (pdats p c).Φ 0)
    (hout : ∀ c, (pdats p c).Φ (Fin.last (cfgs p).N) ⊢ (Pipeline.ΦA (cfgs p).spec c : sProp 𝕄))
    (Vin Vout : (c : Dev nD) → (b : Ref sig .tc) → Buf Val ((c : Thread nD τ).loc b))
    (hA : ∀ c w, (pdats p c).A w = Vin c (Pipeline.arrRef (cfgs p).spec w))
    (hF : ∀ c w, (pdats p c).arrAt w (cfgs p).N = Vout c (Pipeline.arrRef (cfgs p).spec w))
    (hrest : ∀ c b, b ∉ Finset.univ.image (Pipeline.arrRef (cfgs p).spec) → Vout c b = Vin c b) :
    RegionSeg (fun q => (cfgs q).toPCfg (Val := Val)) (fun q => (cfgs q).toPCfg_adm) pdats () defs₀ Variants.none
      (fun _ : GSem nD τ sig => (∅ : Finset Unit)) (fun _ _ => (0 : ℕ)) p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ _ _ p howed
  pre c := iprop(unscopedBufs c (Vin c) ∗ rides c)
  post c := iprop(unscopedBufs c (Vout c) ∗ rides c)
  X c := iprop(∃ r, prngReg c r)
  Y c := iprop(∃ r, prngReg c r)
  Z c := Pipeline.unscopedRest (Ix := Unit) (Name := ℕ) (U := UR sig nD τ) (Lvl := ℕ) (cfgs p).spec c (Vin c)
  hentry c := by
    rw [Pipeline.ownSems0_none]
    have hsplit := Pipeline.arrays_of_unscopedBufs (p := p) (fun q => (cfgs q).toPCfg (Val := Val)) (fun q => (cfgs q).toPCfg_adm) pdats
      launch.win launch.arr_whole c (hshare c) (Vin c) (hA c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c 0]; trivial)
      rw [howed c 0]; iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro H0
    ihave H' := h $$ H0
    icases H' with ⟨Hr, Hp⟩
    isplitl [Hp]; · iexact Hp
    isplitr; · iempintro
    iexact Hr
  hexit c := by
    have hjoin := Pipeline.unscopedBufs_of_arrays (p := p) (fun q => (cfgs q).toPCfg (Val := Val)) (fun q => (cfgs q).toPCfg_adm)
      (Ix := Unit) (Name := ℕ) (U := UR sig nD τ) (Lvl := ℕ)
      launch.win launch.arr_whole c pdats (hshare c) (Vin c) (Vout c) ((pdats p c).arrAt · (cfgs p).N) (hF c) (hrest c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c _] at *; iexact HO

/-- Entered from a valuation of the unscoped references held (the thread state a host stretch leaves): the segment's
    `pre` is that state beside what rides along. -/
theorem pre_held (cfgs : P → Cfg sig Λ₀) (p : P) (launch : Pipeline.LaunchFacts (nD := nD) (τ := τ) cfgs p)
    (pdats : (q : P) → (c : Dev nD) → Dat τ Val Unit ℕ (UR sig nD τ) ℕ (cfgs q) c)
    (defs₀ : Defs nD τ sig Val Λ₀)
    (hbody : ∀ c, BodyObligation (pdats p c) defs₀ Variants.none () Set.univ)
    (howed : ∀ c t, (pdats p c).owed t = 0)
    (hrec : ∀ c t, (pdats p c).recorded t = Set.univ)
    (hshare : ∀ c w, (pdats p c).share w = fullShare)
    (hin : ∀ c, (Pipeline.ΦA (cfgs p).spec c : sProp 𝕄) ⊢ (pdats p c).Φ 0)
    (hout : ∀ c, (pdats p c).Φ (Fin.last (cfgs p).N) ⊢ (Pipeline.ΦA (cfgs p).spec c : sProp 𝕄))
    (Win Wout : Dev nD → Valuation τ sig Val)
    (hA : ∀ c w, (pdats p c).A w = Win c (Proc.devRef .tc (Pipeline.arrRef (cfgs p).spec w)))
    (hF : ∀ c w, (pdats p c).arrAt w (cfgs p).N = Wout c (Proc.devRef .tc (Pipeline.arrRef (cfgs p).spec w)))
    (hrest : ∀ c (b : Ref sig .tc), b ∉ Finset.univ.image (Pipeline.arrRef (cfgs p).spec) → Wout c (Proc.devRef .tc b) = Win c (Proc.devRef .tc b))
    (c : Dev nD) :
    (ofHeld cfgs p launch pdats defs₀ hbody howed hrec hshare hin hout (fun c b => Win c (Proc.devRef .tc b)) (fun c b => Wout c (Proc.devRef .tc b)) hA hF hrest).pre c
      = (iprop(StableHlo.held (c : Thread nD τ) (Pipeline.ucRefs τ sig) (Win c) ∗ rides c) : sProp 𝕄) := by
  show (iprop(unscopedBufs c (fun b => Win c (Proc.devRef .tc b)) ∗ rides c) : sProp 𝕄) = _
  rw [Pipeline.unscopedBufs_held]

/-- Left at the exit valuation held: the segment's `post`. -/
theorem post_held (cfgs : P → Cfg sig Λ₀) (p : P) (launch : Pipeline.LaunchFacts (nD := nD) (τ := τ) cfgs p)
    (pdats : (q : P) → (c : Dev nD) → Dat τ Val Unit ℕ (UR sig nD τ) ℕ (cfgs q) c)
    (defs₀ : Defs nD τ sig Val Λ₀)
    (hbody : ∀ c, BodyObligation (pdats p c) defs₀ Variants.none () Set.univ)
    (howed : ∀ c t, (pdats p c).owed t = 0)
    (hrec : ∀ c t, (pdats p c).recorded t = Set.univ)
    (hshare : ∀ c w, (pdats p c).share w = fullShare)
    (hin : ∀ c, (Pipeline.ΦA (cfgs p).spec c : sProp 𝕄) ⊢ (pdats p c).Φ 0)
    (hout : ∀ c, (pdats p c).Φ (Fin.last (cfgs p).N) ⊢ (Pipeline.ΦA (cfgs p).spec c : sProp 𝕄))
    (Win Wout : Dev nD → Valuation τ sig Val)
    (hA : ∀ c w, (pdats p c).A w = Win c (Proc.devRef .tc (Pipeline.arrRef (cfgs p).spec w)))
    (hF : ∀ c w, (pdats p c).arrAt w (cfgs p).N = Wout c (Proc.devRef .tc (Pipeline.arrRef (cfgs p).spec w)))
    (hrest : ∀ c (b : Ref sig .tc), b ∉ Finset.univ.image (Pipeline.arrRef (cfgs p).spec) → Wout c (Proc.devRef .tc b) = Win c (Proc.devRef .tc b))
    (c : Dev nD) :
    (ofHeld cfgs p launch pdats defs₀ hbody howed hrec hshare hin hout (fun c b => Win c (Proc.devRef .tc b)) (fun c b => Wout c (Proc.devRef .tc b)) hA hF hrest).post c
      = (iprop(StableHlo.held (c : Thread nD τ) (Pipeline.ucRefs τ sig) (Wout c) ∗ rides c) : sProp 𝕄) := by
  show (iprop(unscopedBufs c (fun b => Wout c (Proc.devRef .tc b)) ∗ rides c) : sProp 𝕄) = _
  rw [Pipeline.unscopedBufs_held]

end Cert.LibRegionRecord

end
-- ==== Proof.KRun.lean ====
/-
  The whole run of the program: the buffers' contents at every boundary between a stretch of host operations and a
  kernel region, the three regions as segments over "every unscoped buffer held at the boundary's contents", and the
  launch — every weakly fair execution terminates, faulting nowhere, with every unscoped buffer at the last
  boundary's contents.

  The contents fold through the program: a host stretch applies its operations; the projection regions replace their
  output array by what their write-backs leave; the attention region, three of whose windows read one array, replaces
  the context array alone.
-/
import proofs.«147643_j52802327937631_2_alg».proof.Proof.KBody0
import proofs.«147643_j52802327937631_2_alg».proof.Proof.KBody1
import proofs.«147643_j52802327937631_2_alg».proof.Proof.KBody2
import proofs.«147643_j52802327937631_2_alg».proof.Proof.KShared1
import proofs.«147643_j52802327937631_2_alg».proof.Proof.LibRegionRecord

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.LibRegionRecord (rides)

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region: the context array at what the write-backs leave, every other buffer as entered. -/
def W4 (c : Dev nD) : Valuation τ sig (Elt F) :=
  Function.update (W3 m c) (Proc.devRef .tc main_v5) ((dat1 (V3 m) c).arrAt 3 cfg1.N)
theorem W4_v5 (c : Dev nD) : W4 m c (Proc.devRef .tc main_v5) = (dat1 (V3 m) c).arrAt 3 cfg1.N := by
  unfold W4; exact Function.update_self ..
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)

/-! ## The proof data family -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem hfresh0 : (hostOps0 : List (HloOp τ sig (Elt F))).Forall fun op => op.fresh = ∅ := by
  simp only [List.Forall]; repeat' constructor
theorem hfresh1 : (hostOps1 : List (HloOp τ sig (Elt F))).Forall fun op => op.fresh = ∅ := by
  simp only [List.Forall]; repeat' constructor
theorem hfresh2 : (hostOps2 : List (HloOp τ sig (Elt F))).Forall fun op => op.fresh = ∅ := by
  simp only [List.Forall]; repeat' constructor
theorem hfresh3 : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

/-! ## The regions as segments -/

theorem hF1 (c : Dev nD) : ∀ w : Fin cfg1.W, (dat1 (V3 m) c).arrAt w cfg1.N = V4 m c (Pipeline.arrRef spec1 w)
  | ⟨0, _⟩ => ((dat1 (V3 m) c).arrAt_in 0 rfl _).trans ((A_eq1 (V3 m) c 0).trans (W4_of_ne m c main_v4 (by decide)).symm)
  | ⟨1, _⟩ => ((dat1 (V3 m) c).arrAt_in 1 rfl _).trans ((A_eq1 (V3 m) c 1).trans (W4_of_ne m c main_v4 (by decide)).symm)
  | ⟨2, _⟩ => ((dat1 (V3 m) c).arrAt_in 2 rfl _).trans ((A_eq1 (V3 m) c 2).trans (W4_of_ne m c main_v4 (by decide)).symm)
  | ⟨3, _⟩ => (W4_v5 m c).symm
theorem hrest1 (c : Dev nD) : ∀ b, b ∉ Finset.univ.image (Pipeline.arrRef spec1) → V4 m c b = V3 m c b :=
  fun b hb => W4_of_ne m c b fun e => hb (e ▸ Finset.mem_image.mpr ⟨3, Finset.mem_univ _, rfl⟩)

set_option backward.isDefEq.respectTransparency.types false in
/-- The input projection as a segment: entered from the contents after the first host stretch, left with its output
    array at what the write-backs leave. -/
def reg0 : Pipeline.RegionSeg (pcfgs (F := F)) adm (pdats m) () defs₀ 𝒱₀ L lv 0 :=
  Cert.LibRegionRecord.ofHeld cfgs 0 launch0 (pdats m) defs₀ (fun c => body_obligation0 (V1 m) c)
    (fun _ _ => rfl) (fun _ _ => rfl) (fun c => (pdats m 0 c).share_full fun _ => rfl)
    (fun _ => .rfl) (fun _ => .rfl) (V1 m) (V2 m) (fun c w => A_eq0 (V1 m) c w) (hF0 m) (hrest0 m)

set_option backward.isDefEq.respectTransparency.types false in
/-- The output projection as a segment. -/
def reg2 : Pipeline.RegionSeg (pcfgs (F := F)) adm (pdats m) () defs₀ 𝒱₀ L lv 2 :=
  Cert.LibRegionRecord.ofHeld cfgs 2 launch2 (pdats m) defs₀ (fun c => body_obligation2 (V5 m) c)
    (fun _ _ => rfl) (fun _ _ => rfl) (fun c => (pdats m 2 c).share_full fun _ => rfl)
    (fun _ => .rfl) (fun _ => .rfl) (V5 m) (V6 m) (fun c w => A_eq2 (V5 m) c w) (hF2 m) (hrest2 m)

set_option backward.isDefEq.respectTransparency.types false in
/-- The attention as a segment: the packed projection array's share is dealt among the three windows that read it on
    entry and put together on exit; the context array is left at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(unscopedBufs c (V3 m c) ∗ rides c)
  post c := iprop(unscopedBufs c (V4 m c) ∗ rides c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs c (V3 m c) : sProp 𝕄)
        ⊢ iprop((pdats m 1 c).arrays (pdats m 1 c).A ∗ Pipeline.unscopedRest spec1 c (V3 m c)) := by
      rw [Pipeline.unscopedBufs_split₀ cfgs 1 winFacts₀1.arr_unscoped c (V3 m c)]
      exact sep_mono (arrays1_iff c (V3 m c) (dat1 (V3 m) c) rfl _ (fun w => A_eq1 (V3 m) c w)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N) ∗ Pipeline.unscopedRest spec1 c (V3 m c)) : sProp 𝕄)
        ⊢ unscopedBufs c (V4 m c) := by
      rw [Pipeline.unscopedBufs_split₀ cfgs 1 winFacts₀1.arr_unscoped c (V4 m c)]
      refine sep_mono (arrays1_iff c (V4 m c) (dat1 (V3 m) c) rfl _ (hF1 m c)).2 (Entails.of_eq ?_)
      unfold Pipeline.unscopedRest
      exact bigSep_congr fun b hb => by rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hfresh0 (W0 m)),
    .region (reg0 m),
    .host (hseg hostOps1 hostOps1_sub hfresh1 (W2 m)),
    .region (reg1 m),
    .host (hseg hostOps2 hostOps2_sub hfresh2 (W4 m)),
    .region (reg2 m),
    .host (hseg hostOps3 hostOps3_sub hfresh3 (W6 m)) ]

theorem main_run (c : Dev nD) : main (F := F) c = Pipeline.Seg.run (segs m) := (main_chain c).trans (by chain_rfl)

set_option backward.isDefEq.respectTransparency.types false in
/-- Every weakly fair execution from memory `m` with zero counters terminates, faulting nowhere, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rides c)) (Tₙ := Tₙ m)
    (hch := ⟨fun _ => .rfl,
      fun c => by
        show (iprop(StableHlo.held (c : Thread nD τ) (Pipeline.ucRefs τ sig) (W1 m c) ∗ rides c) : sProp 𝕄) ⊢ iprop(unscopedBufs c (V1 m c) ∗ rides c)
        rw [Pipeline.unscopedBufs_held],
      fun c => by
        show (iprop(unscopedBufs c (V2 m c) ∗ rides c) : sProp 𝕄) ⊢ iprop(StableHlo.held (c : Thread nD τ) (Pipeline.ucRefs τ sig) (W2 m c) ∗ rides c)
        rw [Pipeline.unscopedBufs_held],
      fun c => by
        show (iprop(StableHlo.held (c : Thread nD τ) (Pipeline.ucRefs τ sig) (W3 m c) ∗ rides c) : sProp 𝕄) ⊢ iprop(unscopedBufs c (V3 m c) ∗ rides c)
        rw [Pipeline.unscopedBufs_held],
      fun c => by
        show (iprop(unscopedBufs c (V4 m c) ∗ rides c) : sProp 𝕄) ⊢ iprop(StableHlo.held (c : Thread nD τ) (Pipeline.ucRefs τ sig) (W4 m c) ∗ rides c)
        rw [Pipeline.unscopedBufs_held],
      fun c => by
        show (iprop(StableHlo.held (c : Thread nD τ) (Pipeline.ucRefs τ sig) (W5 m c) ∗ rides c) : sProp 𝕄) ⊢ iprop(unscopedBufs c (V5 m c) ∗ rides c)
        rw [Pipeline.unscopedBufs_held],
      fun c => by
        show (iprop(unscopedBufs c (V6 m c) ∗ rides c) : sProp 𝕄) ⊢ iprop(StableHlo.held (c : Thread nD τ) (Pipeline.ucRefs τ sig) (W6 m c) ∗ rides c)
        rw [Pipeline.unscopedBufs_held],
      fun c => by
        show (iprop(StableHlo.held (c : Thread nD τ) (Pipeline.ucRefs τ sig) (W7 m c) ∗ rides c) : sProp 𝕄) ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Hand

end
-- ==== Proof.KRunArgs.lean ====
/-
  The arguments end as launched: no host operation writes an argument's buffer, the two projection regions read
  their bias argument through an input window (whose array ends as it was found) and touch no other argument, and the
  attention region writes the context array alone. So the contents at the last boundary, read at an argument, walk
  back boundary by boundary to the launch memory.
-/
import proofs.«147643_j52802327937631_2_alg».proof.Proof.KRun

set_option maxRecDepth 16384

noncomputable section

namespace Cert.Kernel.Hand

open Idealize.ShloMosaic Idealize.ShloMosaic.TcCoe Idealize.ShloMosaic.Tactic
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Argument 0 ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- Argument 1 ends as launched. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- Argument 2 ends as launched. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- Argument 3 ends as launched. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

/-- Argument 4 ends as launched. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_forall_not_mem (b := Proc.devRef .tc main_arg4) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg4) := (W6_arr m c 2).trans (((dat2 (V5 m) c).arrAt_in 2 rfl _).trans (A_eq2 (V5 m) c 2))
    _ = W4 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl

end Cert.Kernel.Hand

end
-- ==== Proof.Data.lean ====
/-
  The three kernel regions of the program as pipelines with proof data, at any float instance.

  Region 0 (the input projection): 32 row blocks of 256 rows; each point reads a row block of the flattened input,
  the whole weight matrix and the whole bias, and writes a row block of 3072 columns.
  Region 1 (the attention): 8 × 8 points (batch, pair of heads); each point reads three column blocks of 128 lanes of
  ONE array (queries, keys, values of a pair of heads) and writes the pair's 128 output lanes.
  Region 2 (the output projection): 16 row blocks of 512 rows against the whole second weight matrix and bias.

  Per region: a window's block at a point read off the array the region finds, what the body's one store leaves in
  the output window's buffer, and the proof data (every input buffer keeps its block, the output buffer holds the
  store's value, nothing is owed, the invariant is the class invariant).  In region 1 the three input windows lie on
  one array, so each holds a proper share of it.
-/
import proofs.«147643_j52802327937631_2_alg».proof.Proof.Gen.KernelIdeal.Launch
import proofs.«147643_j52802327937631_2_alg».proof.Proof.Gen.KernelIdeal.Skeleton
import proofs.«147643_j52802327937631_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the core's buffer contents when a region is entered
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S256x1024 := Rect.unit (s := S256x1024) ![0, 0] S256x1024.size inb_S256x1024_S256x1024_0_0
abbrev r0_w : Rect S3072x1024 := Rect.unit (s := S3072x1024) ![0, 0] S3072x1024.size inb_S3072x1024_S3072x1024_0_0
abbrev r0_b : Rect S3072 := Rect.unit (s := S3072) ![0] S3072.size inb_S3072_S3072_0
abbrev r0_o : Rect S256x3072 := Rect.unit (s := S256x3072) ![0, 0] S256x3072.size inb_S256x3072_S256x3072_0_0

/-- The output window's buffer after the body: the one store's value, a function of the three input blocks. -/
def out0_3 (x0 : Vec F S256x1024 .f32) (x1 : Vec F S3072x1024 .bf16) (x2 : Vec F S3072 .f32) : Vec F S256x3072 .bf16 :=
  View.canon [⟨r0_o, k0_pay1 (View.ld x0 r0_x) (View.ld x1 r0_w) (View.ld x2 r0_b)⟩]

theorem cover0_3 (p0 : Vec F S256x3072 .bf16) (y : S256x3072.Idx) :
    ∃ pc ∈ ([⟨r0_o, p0⟩] : List (View.Piece (Elt F) S256x3072 .bf16)), y ∈ pc.1.set :=
  View.cover_of_tiled [⟨r0_o, p0⟩] S256x3072.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S1x1024x128 := Rect.unit (s := S1x1024x128) ![0, 0, 0] S1x1024x128.size inb_S1x1024x128_S1x1024x128_0_0_0

/-- The output window's buffer after the body: the one store's value, a function of the query, key and value blocks. -/
def out1_3 (x0 x1 x2 : Vec F S1x1024x128 .bf16) : Vec F S1x1024x128 .bf16 :=
  View.canon [⟨r1, k1_pay1 (k1_pay5 (View.ld x0 r1) (View.ld x1 r1) (View.ld x2 r1)) (k1_pay6 (View.ld x2 r1))
    (k1_pay7 (View.ld x0 r1) (View.ld x1 r1)) (constant S1024x64 .f32 0x00000000#32)⟩]

theorem cover1_3 (p0 : Vec F S1x1024x128 .bf16) (y : S1x1024x128.Idx) :
    ∃ pc ∈ ([⟨r1, p0⟩] : List (View.Piece (Elt F) S1x1024x128 .bf16)), y ∈ pc.1.set :=
  View.cover_of_tiled [⟨r1, p0⟩] S1x1024x128.size (by rfl) y

/-- The three input windows' shares of the one array they read: a half, a quarter, a quarter. -/
def q1 : Fin cfg1.W → PosShare TreeShare
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1024 := Rect.unit (s := S1024) ![0] S1024.size inb_S1024_S1024_0

/-- The output window's buffer after the body: the one store's value, a function of the three input blocks. -/
def out2_3 (x0 : Vec F S512x1024 .bf16) (x1 : Vec F S1024x1024 .bf16) (x2 : Vec F S1024 .f32) : Vec F S512x1024 .f32 :=
  View.canon [⟨r2_x, k2_pay1 (View.ld x0 r2_x) (View.ld x1 r2_w) (View.ld x2 r2_b)⟩]

theorem cover2_3 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.Body0.lean ====
/-
  The body obligation of region 0 (the input projection), at any float instance.

  At every grid point the three input windows' staging buffers hold their blocks of the arrays the region finds
  (the row block is fetched at every point; the weight matrix and the bias are fetched once and stay in place),
  and the body, run on those buffers, leaves the inputs as they were and the output buffer at the value of its
  one store: the row block times the transposed weight matrix, plus the bias, in the narrow format.
-/
import proofs.«147643_j52802327937631_2_alg».proof.Proof.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input windows' buffers at a point -/

/-- The row-block window's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window's buffer holds the whole matrix at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias window's buffer holds the whole bias at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's triple -/

set_option maxHeartbeats 1000000 in
/-- The body on whole staging buffers, the inputs' at contents `x0 x1 x2` and the output's at anything, runs to the
    continuation holding the inputs as they were and the output at `out0_3 x0 x1 x2`: the one store covers the
    whole output buffer. -/
theorem sound_kernel0 (c : Dev nD) (E : Set ℕ) (i : grid0.Coords)
    (arg1 : Memref sig .tc .vmem S256x1024 .f32) (harg1 : arg1.IsWhole)
    (arg2 : Memref sig .tc .vmem S3072x1024 .bf16) (harg2 : arg2.IsWhole)
    (arg3 : Memref sig .tc .vmem S3072 .f32) (harg3 : arg3.IsWhole)
    (arg4 : Memref sig .tc .vmem S256x3072 .bf16) (harg4 : arg4.IsWhole)
    (x0 : Vec F S256x1024 .f32) (x1 : Vec F S3072x1024 .bf16) (x2 : Vec F S3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__linear_resident_kernel i arg1 harg1 arg2 harg2 arg3 harg3 arg4 harg4) K := by
  simp only [cc0__linear_resident_kernel_eq_skeleton]; unfold cc0__linear_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, what the core owes, and every window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns: the invariant and the core's debt at the next point, and every buffer at what the body
    leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The body obligation of region 1 (the attention), at any float instance.

  At every grid point (a batch and a pair of heads) the three input windows' staging buffers hold the query, key and
  value column blocks of the one array the region finds, each fetched at every point, and the body, run on those
  buffers, leaves the inputs as they were and the output buffer at the value of its one store: for each of the
  pair's two heads the normalized exponentials of the scaled query-key products times the values, the two heads'
  results side by side.
-/
import proofs.«147643_j52802327937631_2_alg».proof.Proof.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input windows' buffers at a point -/

/-- The query window's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The key window's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The value window's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's triple -/

set_option maxHeartbeats 1000000 in
/-- The body on whole staging buffers, the inputs' at contents `x0 x1 x2` and the output's at anything, runs to the
    continuation holding the inputs as they were and the output at `out1_3 x0 x1 x2`: the body's first part reads
    the three inputs and returns the first head's result and what the second head's needs, and the one store
    covers the whole output buffer. -/
theorem sound_kernel1 (c : Dev nD) (E : Set ℕ) (i : grid1.Coords)
    (arg2 : Memref sig .tc .vmem S1x1024x128 .bf16) (harg2 : arg2.IsWhole)
    (arg3 : Memref sig .tc .vmem S1x1024x128 .bf16) (harg3 : arg3.IsWhole)
    (arg4 : Memref sig .tc .vmem S1x1024x128 .bf16) (harg4 : arg4.IsWhole)
    (arg5 : Memref sig .tc .vmem S1x1024x128 .bf16) (harg5 : arg5.IsWhole)
    (x0 x1 x2 : Vec F S1x1024x128 .bf16) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out1_3 x0 x1 x2)) -∗ K ⟨⟩))
      ⊢ wp frame (wpE (defs₀ (F := F)) Variants.none c none) E
          (cc1__attention_kernel i arg2 harg2 arg3 harg3 arg4 harg4 arg5 harg5) K := by
  simp only [cc1__attention_kernel_eq_skeleton]; unfold cc1__attention_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`: the invariant, what the core owes, and every window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns: the invariant and the core's debt at the next point, and every buffer at what the body
    leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/-
  The body obligation of region 2 (the output projection), at any float instance.

  At every grid point the three input windows' staging buffers hold their blocks of the arrays the region finds
  (the row block is fetched at every point; the weight matrix and the bias are fetched once and stay in place),
  and the body, run on those buffers, leaves the inputs as they were and the output buffer at the value of its
  one store: the row block times the transposed weight matrix, plus the bias.
-/
import proofs.«147643_j52802327937631_2_alg».proof.Proof.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input windows' buffers at a point -/

/-- The row-block window's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight window's buffer holds the whole matrix at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The bias window's buffer holds the whole bias at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

set_option maxHeartbeats 1000000 in
/-- The body on whole staging buffers, the inputs' at contents `x0 x1 x2` and the output's at anything, runs to the
    continuation holding the inputs as they were and the output at `out2_3 x0 x1 x2`: the one store covers the
    whole output buffer. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out2_3 x0 x1 x2)) -∗ K ⟨⟩))
      ⊢ wp frame (wpE (defs₀ (F := F)) Variants.none c none) E
          (cc2__linear_resident_kernel i arg1 harg1 arg2 harg2 arg3 harg3 arg4 harg4) K := by
  simp only [cc2__linear_resident_kernel_eq_skeleton]; unfold cc2__linear_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`: the invariant, what the core owes, and every window's current
    buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns: the invariant and the core's debt at the next point, and every buffer at what the body
    leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Shared1.lean ====
/-
  The attention region's windows and the one array three of them read.

  The region's four windows lie on two buffers: the query, key and value windows on the packed projection array, the
  output window on the context array.  The core's unscoped buffers therefore split into those two buffers and the
  rest; the packed array's full share is dealt among the three input windows as a half, a quarter and a quarter, and
  is put together again when the region is left.
-/
import proofs.«147643_j52802327937631_2_alg».proof.Proof.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two buffers behind the four windows. -/
theorem arrImage1 : Finset.univ.image (Pipeline.arrRef spec1) = ([main_v4, main_v5] : List (Ref sig .tc)).toFinset := by decide

theorem share1_0 {c : Dev nD} (dat : Dat τ (Elt F) Unit ℕ (UR sig nD τ) ℕ cfg1 c) (hq : dat.q = q1) : dat.share 0 = fullShare.left := by
  unfold Dat.share; rw [hq]; rfl
theorem share1_1 {c : Dev nD} (dat : Dat τ (Elt F) Unit ℕ (UR sig nD τ) ℕ cfg1 c) (hq : dat.q = q1) : dat.share 1 = fullShare.right.left := by
  unfold Dat.share; rw [hq]; rfl
theorem share1_2 {c : Dev nD} (dat : Dat τ (Elt F) Unit ℕ (UR sig nD τ) ℕ cfg1 c) (hq : dat.q = q1) : dat.share 2 = fullShare.right.right := by
  unfold Dat.share; rw [hq]; rfl
theorem share1_3 {c : Dev nD} (dat : Dat τ (Elt F) Unit ℕ (UR sig nD τ) ℕ cfg1 c) (hq : dat.q = q1) : dat.share 3 = fullShare := by
  unfold Dat.share; rfl

/-- The two buffers whole at the full share are the four windows' arrays at their shares, and conversely: the packed
    array's share is a half beside two quarters. -/
theorem arrays1_iff (c : Dev nD) (V : (b : Ref sig .tc) → Buf (Elt F) ((c : Thread nD τ).loc b))
    (dat : Dat τ (Elt F) Unit ℕ (UR sig nD τ) ℕ cfg1 c) (hq : dat.q = q1)
    (Fa : (w : Fin cfg1.W) → Buf (Elt F) ((cfg1.win w).arr.view.loc (c.tc : Thread nD τ)))
    (hF : ∀ w, Fa w = V (Pipeline.arrRef spec1 w)) :
    (Pipeline.arrBufs spec1 c V : sProp 𝕄) ⊣⊢ dat.arrays Fa := by
  unfold Pipeline.arrBufs Dat.arrays
  rw [bigSep_eq_bigSepL_of_eq [main_v4, main_v5] arrImage1 (by decide), bigSep_W1]
  rw [(arr_whole1 0).set_eq_univ, (arr_whole1 3).set_eq_univ,
    share1_0 dat hq, share1_1 dat hq, share1_2 dat hq, share1_3 dat hq, hF 0, hF 1, hF 2, hF 3]
  show (iprop((c.tc.loc main_v4 ↦{fullShare} V main_v4) ∗ (c.tc.loc main_v5 ↦{fullShare} V main_v5)) : sProp 𝕄) ⊣⊢ _
  have e1 : (c.tc.loc main_v4 ↦{fullShare} V main_v4 : sProp 𝕄)
      ⊢ iprop((c.tc.loc main_v4 ↦{fullShare.left} V main_v4) ∗ (c.tc.loc main_v4 ↦{fullShare.right} V main_v4)) :=
    (pointsTo_share (PosShare.mem_left_op_right fullShare)).1
  have e2 : (c.tc.loc main_v4 ↦{fullShare.right} V main_v4 : sProp 𝕄)
      ⊢ iprop((c.tc.loc main_v4 ↦{fullShare.right.left} V main_v4) ∗ (c.tc.loc main_v4 ↦{fullShare.right.right} V main_v4)) :=
    (pointsTo_share (PosShare.mem_left_op_right fullShare.right)).1
  have e1' : (iprop((c.tc.loc main_v4 ↦{fullShare.left} V main_v4) ∗ (c.tc.loc main_v4 ↦{fullShare.right} V main_v4)) : sProp 𝕄)
      ⊢ (c.tc.loc main_v4 ↦{fullShare} V main_v4) :=
    (pointsTo_share (PosShare.mem_left_op_right fullShare)).2
  have e2' : (iprop((c.tc.loc main_v4 ↦{fullShare.right.left} V main_v4) ∗ (c.tc.loc main_v4 ↦{fullShare.right.right} V main_v4)) : sProp 𝕄)
      ⊢ (c.tc.loc main_v4 ↦{fullShare.right} V main_v4) :=
    (pointsTo_share (PosShare.mem_left_op_right fullShare.right)).2
  refine ⟨?_, ?_⟩
  · iintro ⟨H4, H5⟩
    ihave H := e1 $$ H4
    icases H with ⟨Hl, Hr⟩
    ihave H' := e2 $$ Hr
    icases H' with ⟨Hrl, Hrr⟩
    isplitl [Hl]; · iexact Hl
    isplitl [Hrl]; · iexact Hrl
    isplitl [Hrr]; · iexact Hrr
    iexact H5
  · iintro ⟨Hl, Hrl, Hrr, H5⟩
    ihave Hr := e2' $$ [Hrl Hrr]
    · isplitl [Hrl] <;> iassumption
    ihave H4 := e1' $$ [Hl Hr]
    · isplitl [Hl] <;> iassumption
    isplitl [H4]; · iexact H4
    iexact H5

end Cert.KernelIdeal.Hand

end
-- ==== Proof.Run.lean ====
/-
  The whole run of the program: the buffers' contents at every boundary between a stretch of host operations and a
  kernel region, the three regions as segments over "every unscoped buffer held at the boundary's contents", and the
  launch — every weakly fair execution terminates, faulting nowhere, with every unscoped buffer at the last
  boundary's contents.

  The contents fold through the program: a host stretch applies its operations; the projection regions replace their
  output array by what their write-backs leave; the attention region, three of whose windows read one array, replaces
  the context array alone.
-/
import proofs.«147643_j52802327937631_2_alg».proof.Proof.Body0
import proofs.«147643_j52802327937631_2_alg».proof.Proof.Body1
import proofs.«147643_j52802327937631_2_alg».proof.Proof.Body2
import proofs.«147643_j52802327937631_2_alg».proof.Proof.Shared1
import proofs.«147643_j52802327937631_2_alg».proof.Proof.LibRegionRecord

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.LibRegionRecord (rides)

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region: the context array at what the write-backs leave, every other buffer as entered. -/
def W4 (c : Dev nD) : Valuation τ sig (Elt F) :=
  Function.update (W3 m c) (Proc.devRef .tc main_v5) ((dat1 (V3 m) c).arrAt 3 cfg1.N)
theorem W4_v5 (c : Dev nD) : W4 m c (Proc.devRef .tc main_v5) = (dat1 (V3 m) c).arrAt 3 cfg1.N := by
  unfold W4; exact Function.update_self ..
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)

/-! ## The proof data family -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem hfresh0 : (hostOps0 : List (HloOp τ sig (Elt F))).Forall fun op => op.fresh = ∅ := by
  simp only [List.Forall]; repeat' constructor
theorem hfresh1 : (hostOps1 : List (HloOp τ sig (Elt F))).Forall fun op => op.fresh = ∅ := by
  simp only [List.Forall]; repeat' constructor
theorem hfresh2 : (hostOps2 : List (HloOp τ sig (Elt F))).Forall fun op => op.fresh = ∅ := by
  simp only [List.Forall]; repeat' constructor
theorem hfresh3 : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

/-! ## The regions as segments -/

theorem hF1 (c : Dev nD) : ∀ w : Fin cfg1.W, (dat1 (V3 m) c).arrAt w cfg1.N = V4 m c (Pipeline.arrRef spec1 w)
  | ⟨0, _⟩ => ((dat1 (V3 m) c).arrAt_in 0 rfl _).trans ((A_eq1 (V3 m) c 0).trans (W4_of_ne m c main_v4 (by decide)).symm)
  | ⟨1, _⟩ => ((dat1 (V3 m) c).arrAt_in 1 rfl _).trans ((A_eq1 (V3 m) c 1).trans (W4_of_ne m c main_v4 (by decide)).symm)
  | ⟨2, _⟩ => ((dat1 (V3 m) c).arrAt_in 2 rfl _).trans ((A_eq1 (V3 m) c 2).trans (W4_of_ne m c main_v4 (by decide)).symm)
  | ⟨3, _⟩ => (W4_v5 m c).symm
theorem hrest1 (c : Dev nD) : ∀ b, b ∉ Finset.univ.image (Pipeline.arrRef spec1) → V4 m c b = V3 m c b :=
  fun b hb => W4_of_ne m c b fun e => hb (e ▸ Finset.mem_image.mpr ⟨3, Finset.mem_univ _, rfl⟩)

set_option backward.isDefEq.respectTransparency.types false in
/-- The input projection as a segment: entered from the contents after the first host stretch, left with its output
    array at what the write-backs leave. -/
def reg0 : Pipeline.RegionSeg (pcfgs (F := F)) adm (pdats m) () defs₀ 𝒱₀ L lv 0 :=
  Cert.LibRegionRecord.ofHeld cfgs 0 launch0 (pdats m) defs₀ (fun c => body_obligation0 (V1 m) c)
    (fun _ _ => rfl) (fun _ _ => rfl) (fun c => (pdats m 0 c).share_full fun _ => rfl)
    (fun _ => .rfl) (fun _ => .rfl) (V1 m) (V2 m) (fun c w => A_eq0 (V1 m) c w) (hF0 m) (hrest0 m)

set_option backward.isDefEq.respectTransparency.types false in
/-- The output projection as a segment. -/
def reg2 : Pipeline.RegionSeg (pcfgs (F := F)) adm (pdats m) () defs₀ 𝒱₀ L lv 2 :=
  Cert.LibRegionRecord.ofHeld cfgs 2 launch2 (pdats m) defs₀ (fun c => body_obligation2 (V5 m) c)
    (fun _ _ => rfl) (fun _ _ => rfl) (fun c => (pdats m 2 c).share_full fun _ => rfl)
    (fun _ => .rfl) (fun _ => .rfl) (V5 m) (V6 m) (fun c w => A_eq2 (V5 m) c w) (hF2 m) (hrest2 m)

set_option backward.isDefEq.respectTransparency.types false in
/-- The attention as a segment: the packed projection array's share is dealt among the three windows that read it on
    entry and put together on exit; the context array is left at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(unscopedBufs c (V3 m c) ∗ rides c)
  post c := iprop(unscopedBufs c (V4 m c) ∗ rides c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs c (V3 m c) : sProp 𝕄)
        ⊢ iprop((pdats m 1 c).arrays (pdats m 1 c).A ∗ Pipeline.unscopedRest spec1 c (V3 m c)) := by
      rw [Pipeline.unscopedBufs_split₀ cfgs 1 winFacts₀1.arr_unscoped c (V3 m c)]
      exact sep_mono (arrays1_iff c (V3 m c) (dat1 (V3 m) c) rfl _ (fun w => A_eq1 (V3 m) c w)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop((pdats m 1 c).arrays ((pdats m 1 c).arrAt · cfg1.N) ∗ Pipeline.unscopedRest spec1 c (V3 m c)) : sProp 𝕄)
        ⊢ unscopedBufs c (V4 m c) := by
      rw [Pipeline.unscopedBufs_split₀ cfgs 1 winFacts₀1.arr_unscoped c (V4 m c)]
      refine sep_mono (arrays1_iff c (V4 m c) (dat1 (V3 m) c) rfl _ (hF1 m c)).2 (Entails.of_eq ?_)
      unfold Pipeline.unscopedRest
      exact bigSep_congr fun b hb => by rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hfresh0 (W0 m)),
    .region (reg0 m),
    .host (hseg hostOps1 hostOps1_sub hfresh1 (W2 m)),
    .region (reg1 m),
    .host (hseg hostOps2 hostOps2_sub hfresh2 (W4 m)),
    .region (reg2 m),
    .host (hseg hostOps3 hostOps3_sub hfresh3 (W6 m)) ]

theorem main_run (c : Dev nD) : main (F := F) c = Pipeline.Seg.run (segs m) := (main_chain c).trans (by chain_rfl)

set_option backward.isDefEq.respectTransparency.types false in
/-- Every weakly fair execution from memory `m` with zero counters terminates, faulting nowhere, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rides c)) (Tₙ := Tₙ m)
    (hch := ⟨fun _ => .rfl,
      fun c => by
        show (iprop(StableHlo.held (c : Thread nD τ) (Pipeline.ucRefs τ sig) (W1 m c) ∗ rides c) : sProp 𝕄) ⊢ iprop(unscopedBufs c (V1 m c) ∗ rides c)
        rw [Pipeline.unscopedBufs_held],
      fun c => by
        show (iprop(unscopedBufs c (V2 m c) ∗ rides c) : sProp 𝕄) ⊢ iprop(StableHlo.held (c : Thread nD τ) (Pipeline.ucRefs τ sig) (W2 m c) ∗ rides c)
        rw [Pipeline.unscopedBufs_held],
      fun c => by
        show (iprop(StableHlo.held (c : Thread nD τ) (Pipeline.ucRefs τ sig) (W3 m c) ∗ rides c) : sProp 𝕄) ⊢ iprop(unscopedBufs c (V3 m c) ∗ rides c)
        rw [Pipeline.unscopedBufs_held],
      fun c => by
        show (iprop(unscopedBufs c (V4 m c) ∗ rides c) : sProp 𝕄) ⊢ iprop(StableHlo.held (c : Thread nD τ) (Pipeline.ucRefs τ sig) (W4 m c) ∗ rides c)
        rw [Pipeline.unscopedBufs_held],
      fun c => by
        show (iprop(StableHlo.held (c : Thread nD τ) (Pipeline.ucRefs τ sig) (W5 m c) ∗ rides c) : sProp 𝕄) ⊢ iprop(unscopedBufs c (V5 m c) ∗ rides c)
        rw [Pipeline.unscopedBufs_held],
      fun c => by
        show (iprop(unscopedBufs c (V6 m c) ∗ rides c) : sProp 𝕄) ⊢ iprop(StableHlo.held (c : Thread nD τ) (Pipeline.ucRefs τ sig) (W6 m c) ∗ rides c)
        rw [Pipeline.unscopedBufs_held],
      fun c => by
        show (iprop(StableHlo.held (c : Thread nD τ) (Pipeline.ucRefs τ sig) (W7 m c) ∗ rides c) : sProp 𝕄) ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.RunArgs.lean ====
/-
  The arguments end as launched: no host operation writes an argument's buffer, the two projection regions read
  their bias argument through an input window (whose array ends as it was found) and touch no other argument, and the
  attention region writes the context array alone. So the contents at the last boundary, read at an argument, walk
  back boundary by boundary to the launch memory.
-/
import proofs.«147643_j52802327937631_2_alg».proof.Proof.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Argument 0 ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- Argument 1 ends as launched. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- Argument 2 ends as launched. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- Argument 3 ends as launched. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl

/-- Argument 4 ends as launched. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_forall_not_mem (b := Proc.devRef .tc main_arg4) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W5 m c (Proc.devRef .tc main_arg4) := (W6_arr m c 2).trans (((dat2 (V5 m) c).arrAt_in 2 rfl _).trans (A_eq2 (V5 m) c 2))
    _ = W4 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl

end Cert.KernelIdeal.Hand

end
-- ==== Proof.Spec.lean ====
/-
  Multi-head self-attention of a batch of sequences, element by element, over the extended reals.

  The arguments are the hidden states x[8, 1024, 1024] (batch, position, feature), the input projection W₁[3072, 1024]
  with its bias b₁[3072], and the output projection W₂[1024, 1024] with its bias b₂[1024].

    qkv[b, s, o]   = (∑ h, x[b, s, h] · W₁[o, h]) + b₁[o]                       one dense layer, 3072 output features;
                     columns 0..1023 are the queries, 1024..2047 the keys, 2048..3071 the values, and inside each
                     third the sixteen heads own 64 consecutive columns each (head n, lane d ↦ column n·64 + d);
    score[b, n, s, k] = (∑ d, q[b, s, n, d] · k[b, k, n, d]) · c                   c the scale, kept as its f32 word (1/8);
    M[b, n, s]     = the maximum over k of the scores of row s, folded from -∞;
    w[b, n, s, k]  = exp (score[b, n, s, k] - M[b, n, s]);
    p[b, n, s, k]  = w[b, n, s, k] / ∑ k', w[b, n, s, k']                          each weight normalised by the row's total;
    attn[b, n, s, d] = ∑ k, p[b, n, s, k] · v[b, k, n, d];
    ctx[b, s, j]   = attn[b, j / 64, s, j % 64]                                    the heads side by side again;
    out[b, s, o]   = (∑ h, ctx[b, s, h] · W₂[o, h]) + b₂[o].
-/
import Idealize.ShloMosaic.PureOps.Ideal
import Idealize.ShloMosaic.PureOps.Ideal.Laws
import Idealize.ShloMosaic.Lib.ValueIdx
import Mathlib.Data.Finset.Fold

noncomputable section

namespace Cert.Spec

open Idealize.ShloMosaic Idealize.ShloMosaic.ValueIdx

abbrev S8x1024x1024 : Shape := ⟨3, ![8, 1024, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩

/-! ## Columns of the projected array -/

/-- The query column of head `n`, lane `d`. -/
def qcol (n : Fin 16) (d : Fin 64) : Fin 3072 := ⟨n.val * 64 + d.val, by omega⟩
/-- The key column of head `n`, lane `d`. -/
def kcol (n : Fin 16) (d : Fin 64) : Fin 3072 := ⟨1024 + (n.val * 64 + d.val), by omega⟩
/-- The value column of head `n`, lane `d`. -/
def vcol (n : Fin 16) (d : Fin 64) : Fin 3072 := ⟨2048 + (n.val * 64 + d.val), by omega⟩

/-- The head that owns column `j` of the context. -/
def headOf (j : Fin 1024) : Fin 16 := ⟨j.val / 64, by omega⟩
/-- The lane of column `j` inside its head. -/
def laneOf (j : Fin 1024) : Fin 64 := ⟨j.val % 64, by omega⟩
/-- Column `n·64 + d` of the context. -/
def ccol (n : Fin 16) (d : Fin 64) : Fin 1024 := ⟨n.val * 64 + d.val, by omega⟩

theorem headOf_ccol (n : Fin 16) (d : Fin 64) : headOf (ccol n d) = n := Fin.ext (by show (n.val * 64 + d.val) / 64 = n.val; omega)
theorem laneOf_ccol (n : Fin 16) (d : Fin 64) : laneOf (ccol n d) = d := Fin.ext (by show (n.val * 64 + d.val) % 64 = d.val; omega)
theorem ccol_head_lane (j : Fin 1024) : ccol (headOf j) (laneOf j) = j := Fin.ext (by show j.val / 64 * 64 + j.val % 64 = j.val; omega)

/-! ## The stages -/

/-- The scale of the scores: the f32 word of 1/8, never evaluated. -/
def scale : EReal := Ideal.ofBits .f32 0x3E000000#32

/-- The input projection: one dense layer with 3072 output features. -/
def qkv (x : S8x1024x1024.Idx → EReal) (w1 : S3072x1024.Idx → EReal) (b1 : S3072.Idx → EReal) :
    Fin 8 → Fin 1024 → Fin 3072 → EReal :=
  fun b s o => (∑ h : Fin 1024, x (ix3 b s h) * w1 (ix2 o h)) + b1 (ix1 o)

/-- The scaled score of query row `s` against key row `k`, in head `n` of batch `b`. -/
def score (x : S8x1024x1024.Idx → EReal) (w1 : S3072x1024.Idx → EReal) (b1 : S3072.Idx → EReal)
    (b : Fin 8) (n : Fin 16) (s k : Fin 1024) : EReal :=
  (∑ d : Fin 64, qkv x w1 b1 b s (qcol n d) * qkv x w1 b1 b k (kcol n d)) * scale

/-- The maximum of a row of 1024 scores, folded from -∞. -/
def rowMax (r : Fin 1024 → EReal) : EReal := (Finset.univ : Finset (Fin 1024)).fold max ⊥ r

/-- The weight of key row `k` for query row `s`: the exponential of the score's distance below the row's maximum. -/
def weight (x : S8x1024x1024.Idx → EReal) (w1 : S3072x1024.Idx → EReal) (b1 : S3072.Idx → EReal)
    (b : Fin 8) (n : Fin 16) (s k : Fin 1024) : EReal :=
  Ideal.exp (score x w1 b1 b n s k - rowMax (score x w1 b1 b n s))

/-- The normalised weight: the weight divided by the total weight of its row. -/
def prob (x : S8x1024x1024.Idx → EReal) (w1 : S3072x1024.Idx → EReal) (b1 : S3072.Idx → EReal)
    (b : Fin 8) (n : Fin 16) (s k : Fin 1024) : EReal :=
  Ideal.div (weight x w1 b1 b n s k) (∑ k' : Fin 1024, weight x w1 b1 b n s k')

/-- One head's attention: the normalised weights applied to the head's value rows. -/
def attn (x : S8x1024x1024.Idx → EReal) (w1 : S3072x1024.Idx → EReal) (b1 : S3072.Idx → EReal)
    (b : Fin 8) (n : Fin 16) (s : Fin 1024) (d : Fin 64) : EReal :=
  ∑ k : Fin 1024, prob x w1 b1 b n s k * qkv x w1 b1 b k (vcol n d)

/-- The context: the sixteen heads' results side by side, head `j / 64` at lane `j % 64`. -/
def ctx (x : S8x1024x1024.Idx → EReal) (w1 : S3072x1024.Idx → EReal) (b1 : S3072.Idx → EReal) :
    Fin 8 → Fin 1024 → Fin 1024 → EReal :=
  fun b s j => attn x w1 b1 b (headOf j) s (laneOf j)

/-- The context at column `n·64 + d` is head `n`'s result at lane `d`. -/
theorem ctx_ccol (x : S8x1024x1024.Idx → EReal) (w1 : S3072x1024.Idx → EReal) (b1 : S3072.Idx → EReal)
    (b : Fin 8) (s : Fin 1024) (n : Fin 16) (d : Fin 64) :
    ctx x w1 b1 b s (ccol n d) = attn x w1 b1 b n s d := by
  unfold ctx; rw [headOf_ccol, laneOf_ccol]

/-- The whole result: the output projection of the context. -/
def out (x : S8x1024x1024.Idx → EReal) (w1 : S3072x1024.Idx → EReal) (b1 : S3072.Idx → EReal)
    (w2 : S1024x1024.Idx → EReal) (b2 : S1024.Idx → EReal) : S8x1024x1024.Idx → EReal :=
  fun i => (∑ h : Fin 1024, ctx x w1 b1 (i 0) (i 1) h * w2 (ix2 (i 2) h)) + b2 (ix1 (i 2))

/-- The result at coordinates. -/
theorem out_ix3 (x : S8x1024x1024.Idx → EReal) (w1 : S3072x1024.Idx → EReal) (b1 : S3072.Idx → EReal)
    (w2 : S1024x1024.Idx → EReal) (b2 : S1024.Idx → EReal) (b : Fin 8) (s o : Fin 1024) :
    out x w1 b1 w2 b2 (ix3 b s o) = (∑ h : Fin 1024, ctx x w1 b1 b s h * w2 (ix2 o h)) + b2 (ix1 o) := rfl

end Cert.Spec

end
-- ==== Proof.LibMatmulNTAt.lean ====
/-
  A matrix product with the right operand transposed, read at an element.

  A contraction whose dimension numbers are those of an [R, K] × [C, K] product (each operand contracted on its
  axis 1, no batch axis: the rows of the left operand against the ROWS of the right one, as in a table of inner
  products q·kᵀ), accumulated into the zero splat, read at the element (p, q) is ∑ k, l(p, k) * r(q, k) over the
  extended reals. The statement is over ANY record of dimension numbers with those six lists, so that it applies to
  every record of that kind a program names, whatever its extents.
-/
import Idealize.ShloMosaic.PureOps.Ideal.Laws
import Idealize.ShloMosaic.Lib.ValueIdx

noncomputable section

namespace Cert.LibMatmulNTAt

open Idealize.ShloMosaic Idealize.ShloMosaic.ValueIdx

/-- The dimension numbers of an [R, K] × [C, K] product, with its well-formedness proof a variable: every record with
    those six lists is this one. -/
abbrev rowsOf {R K C : ℕ}
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ :=
  ⟨[1], [1], [0], [0], [], [], wf⟩

/-- The sum over the one-axis contraction index, re-indexed by that axis's coordinate, reads the left operand at (p, k)
    and the right operand at (q, k). -/
theorem rowsOf_sum {R K C : ℕ} (wf : DotDims.WF ⟨2, ![R, K]⟩ ⟨2, ![C, K]⟩ ⟨2, ![R, C]⟩ [1] [1] [0] [0] [] [])
    (l : (⟨2, ![R, K]⟩ : Shape).Idx → EReal) (r : (⟨2, ![C, K]⟩ : Shape).Idx → EReal) (p : Fin R) (q : Fin C) :
    (∑ k : (rowsOf wf).contr.Idx, l ((rowsOf wf).lhsIdx (ix2 p q) k) * r ((rowsOf wf).rhsIdx (ix2 p q) k))
      = ∑ k : Fin K, l (ix2 p k) * r (ix2 q k) := by
  have l0 : ∀ kk : (rowsOf wf).contr.Idx, ((rowsOf wf).lhsIdx (ix2 p q) kk 0).val = p.val := fun kk => by
    unfold DotDims.lhsIdx
    rw [dif_neg (show ¬(0 : Fin (⟨2, ![R, K]⟩ : Shape).rank) ∈ (rowsOf wf).lhsBatch from List.not_mem_nil),
      dif_pos (show (0 : Fin (⟨2, ![R, K]⟩ : Shape).rank) ∈ (rowsOf wf).lhsNonContracting from List.mem_singleton.mpr rfl)]
    rfl
  have r0 : ∀ kk : (rowsOf wf).contr.Idx, ((rowsOf wf).rhsIdx (ix2 p q) kk 0).val = q.val := fun kk => by
    unfold DotDims.rhsIdx
    rw [dif_neg (show ¬(0 : Fin (⟨2, ![C, K]⟩ : Shape).rank) ∈ (rowsOf wf).rhsBatch from List.not_mem_nil),
      dif_pos (show (0 : Fin (⟨2, ![C, K]⟩ : Shape).rank) ∈ (rowsOf wf).rhsNonContracting from List.mem_singleton.mpr rfl)]
    rfl
  rw [← Equiv.sum_comp (contrEquiv1 (rowsOf wf) K rfl rfl).symm]
  refine Finset.sum_congr rfl fun k _ => ?_
  have hk := contrEquiv1_symm_val (rowsOf wf) K rfl rfl k
  have el : (rowsOf wf).lhsIdx (ix2 p q) ((contrEquiv1 (rowsOf wf) K rfl rfl).symm k) = ix2 p k :=
    funext fun a => Fin.ext (by
      match a with
      | ⟨0, _⟩ => exact l0 _
      | ⟨1, _⟩ => exact ((rowsOf wf).lhsIdx_val_of_single rfl _ _).trans hk)
  have er : (rowsOf wf).rhsIdx (ix2 p q) ((contrEquiv1 (rowsOf wf) K rfl rfl).symm k) = ix2 q k :=
    funext fun a => Fin.ext (by
      match a with
      | ⟨0, _⟩ => exact r0 _
      | ⟨1, _⟩ => exact ((rowsOf wf).rhsIdx_val_of_single rfl _ _).trans hk)
  rw [el, er]

/-- A product into the zero accumulator, for any record of dimension numbers with the six lists of an
    [R, K] × [C, K] product, read at (p, q): the sum over k of the left operand at (p, k) times the right at (q, k). -/
theorem matmul_zero_apply {R K C : ℕ} {φ₁ φ₂ : FTy} (D : DotDims ⟨2, ![R, K]⟩ ⟨2, ![C, K]⟩ ⟨2, ![R, C]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![R, K]⟩ φ₁) (r : FVec Ideal ⟨2, ![C, K]⟩ φ₂)
    (p : Fin R) (q : Fin C) :
    matmul D prec l r (constant (F := Ideal) ⟨2, ![R, C]⟩ .f32 0x00000000#32) (ix2 p q)
      = ∑ k : Fin K, l (ix2 p k) * r (ix2 q k) := by
  obtain ⟨lc, rc, ln, rn, lb, rb, wf⟩ := D
  dsimp only at hlc hrc hln hrn hlb hrb
  subst hlc hrc hln hrn hlb hrb
  exact (Ideal.matmul_constant_zero_apply (rowsOf wf) prec l r (ix2 p q)).trans (rowsOf_sum wf l r p q)

end Cert.LibMatmulNTAt

end
-- ==== Proof.Origin.lean ====
/-
  The offset of a rectangle that starts at the origin of an array of one, two or three axes is the zero function.
-/
import Mathlib.Data.Fin.VecNotation

namespace Cert.KernelIdeal.Hand

/-- One axis. -/
theorem origin1 : (![0] : Fin 1 → Nat) = fun _ => 0 := funext fun a => match a with | ⟨0, _⟩ => rfl

/-- Two axes. -/
theorem origin2 : (![0, 0] : Fin 2 → Nat) = fun _ => 0 := funext fun a => match a with | ⟨0, _⟩ => rfl | ⟨1, _⟩ => rfl

/-- Three axes. -/
theorem origin3 : (![0, 0, 0] : Fin 3 → Nat) = fun _ => 0 := funext fun a => match a with | ⟨0, _⟩ => rfl | ⟨1, _⟩ => rfl | ⟨2, _⟩ => rfl

end Cert.KernelIdeal.Hand
-- ==== Proof.Pay0.lean ====
/-
  The input projection's block, read at an element.

  At a grid point the body multiplies a block of 256 rows of the flattened input by the transpose of the whole first
  weight matrix [3072, 1024] (both operands contracted on their second axis) into a zero accumulator and adds the
  bias, a vector of 3072 entries set up as one row and repeated down the 256 rows.  A change of float format is the
  identity on the extended reals, so the element (p, q) of what the one store leaves is  ∑ k, x(p, k) · W(q, k) + b(q).
-/
import proofs.«147643_j52802327937631_2_alg».proof.Proof.Data
import proofs.«147643_j52802327937631_2_alg».proof.Proof.LibMatmulNTAt
import proofs.«147643_j52802327937631_2_alg».proof.Proof.Origin
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx

/-- The input projection's stored block at (p, q): row p of the block against row q of the weight matrix, plus
    the bias at q. -/
theorem out0_3_apply (x0 : Vec Ideal S256x1024 .f32) (x1 : Vec Ideal S3072x1024 .bf16) (x2 : Vec Ideal S3072 .f32)
    (p : Fin 256) (q : Fin 3072) :
    out0_3 (F := Ideal) x0 x1 x2 (ix2 p q) = (∑ k : Fin 1024, x0 (ix2 p k) * x1 (ix2 q k)) + x2 (ix1 q) := by
  unfold out0_3
  rw [View.canon_unit_zero origin2]
  simp only [View.ld_unit_zero (S := S256x1024) origin2, View.ld_unit_zero (S := S3072x1024) origin2,
    View.ld_unit_zero (S := S3072) origin1]
  unfold k0_pay1
  rw [truncf_apply, addf_apply, shapeCast_self, shapeCast_self,
    Cert.LibMatmulNTAt.matmul_zero_apply _ rfl rfl rfl rfl rfl rfl, broadcastTo_1b_ab_apply, shapeCast_a_1a_apply]
  simp only [truncf_apply]

end Cert.KernelIdeal.Hand

end
-- ==== Proof.Block0.lean ====
/-
  The input projection's whole output array.

  Region 0 walks 32 row blocks of 256 rows.  At point t it reads rows 256·t … 256·t + 255 of the flattened input
  [8192, 1024], the whole first weight matrix [3072, 1024] and the whole bias [3072], and writes rows
  256·t … 256·t + 255 of the output [8192, 3072].  What a point writes back is the restriction to its rows of ONE
  function of the three arrays,
      (i, j) ↦ ∑ k, x(i, k) · W(j, k) + b(j),
  and the 32 row blocks cover the output, so after the last point the output array is that function.
-/
import proofs.«147643_j52802327937631_2_alg».proof.Proof.Data
import proofs.«147643_j52802327937631_2_alg».proof.Proof.Pay0
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window cellOf)
open Cert.KernelIdeal Cert.KernelIdeal.Gen
open Idealize.ShloMosaic.ValueIdx

-- the core's buffer contents when the region is entered, on the extended reals
variable (V : (c : Dev nD) → (b : Ref sig .tc) → Buf (Elt Ideal) ((c : Thread nD τ).loc b))

/-! ## The projection as one function of the three arrays -/

/-- Row i of the input against row j of the weight matrix, plus the bias at j. -/
def layer0 (a : S8192x1024.Idx → EReal) (w : S3072x1024.Idx → EReal) (b : S3072.Idx → EReal) : S8192x3072.Idx → EReal :=
  fun i => (∑ k : Fin 1024, a (ix2 (i 0) k) * w (ix2 (i 1) k)) + b (ix1 (i 1))

/-- The layer at coordinates. -/
theorem layer0_apply (a : S8192x1024.Idx → EReal) (w : S3072x1024.Idx → EReal) (b : S3072.Idx → EReal)
    (r : Fin 8192) (q : Fin 3072) :
    layer0 a w b (ix2 r q) = (∑ k : Fin 1024, a (ix2 r k) * w (ix2 q k)) + b (ix1 q) := rfl

/-! ## Where the windows' blocks sit -/

/-- The block indices over the grid: the input's and the output's row block is the point's number; the weight matrix
    and the bias are one block each. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry (p, k) of the input's block at point t is entry (256·t + p, k) of the input. -/
theorem iblk0_0_apply (c : Dev nD) (t : Fin cfg0.N) (y : S256x1024.Idx) (i : S8192x1024.Idx)
    (h0 : (i 0).val = 256 * t.val + (y 0).val) (h1 : (i 1).val = (y 1).val) :
    (iblk0 V c 0 t : Vec Ideal S256x1024 .f32) y = (V c main_v0 : S8192x1024.Idx → EReal) i := by
  obtain ⟨e0, e1, -⟩ := index0 t
  unfold iblk0
  rw [View.read_apply]
  show V c main_v0 _ = V c main_v0 _
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 1024 + 1 * (y 1).val = (i 1).val; rw [e1, h1]; omega

/-- The weight window's block at any point is the whole weight matrix. -/
theorem iblk0_1_apply (c : Dev nD) (t : Fin cfg0.N) (y : S3072x1024.Idx) :
    (iblk0 V c 1 t : Vec Ideal S3072x1024 .bf16) y = (V c main_v1 : S3072x1024.Idx → EReal) y := by
  obtain ⟨-, -, e2, e3, -⟩ := index0 t
  unfold iblk0
  rw [View.read_apply]
  show V c main_v1 _ = V c main_v1 _
  congr 1
  funext a
  apply Fin.ext
  match a with
  | ⟨0, _⟩ => show win0_1.index t (0 : Fin 2) * 3072 + 1 * (y 0).val = (y 0).val; rw [e2]; omega
  | ⟨1, _⟩ => show win0_1.index t (1 : Fin 2) * 1024 + 1 * (y 1).val = (y 1).val; rw [e3]; omega

/-- The bias window's block at any point is the whole bias. -/
theorem iblk0_2_apply (c : Dev nD) (t : Fin cfg0.N) (y : S3072.Idx) :
    (iblk0 V c 2 t : Vec Ideal S3072 .f32) y = (V c main_arg2 : S3072.Idx → EReal) y := by
  obtain ⟨-, -, -, -, e4, -⟩ := index0 t
  unfold iblk0
  rw [View.read_apply]
  show V c main_arg2 _ = V c main_arg2 _
  congr 1
  funext a
  apply Fin.ext
  match a with
  | ⟨0, _⟩ => show win0_2.index t (0 : Fin 1) * 3072 + 1 * (y 0).val = (y 0).val; rw [e4]; omega

/-- Entry (p, q) of the output's block at point t is entry (256·t + p, q) of the output. -/
theorem emb0_3 (t : Fin cfg0.N) (p : Fin 256) (q : Fin 3072) :
    ((((cfg0.win 3).blk t).view.emb (ix2 p q)) 0).val = 256 * t.val + p.val
    ∧ ((((cfg0.win 3).blk t).view.emb (ix2 p q)) 1).val = q.val := by
  obtain ⟨-, -, -, -, -, e5, e6⟩ := index0 t
  constructor
  · show win0_3.index t (0 : Fin 2) * 256 + 1 * p.val = 256 * t.val + p.val; rw [e5]; omega
  · show win0_3.index t (1 : Fin 2) * 3072 + 1 * q.val = q.val; rw [e6]; omega

/-! ## What a point writes back -/

/-- The write-back of point t is the projection of the three arrays, read through the point's row block. -/
theorem flushed0_eq (c : Dev nD) (t : Fin cfg0.N) :
    (dat0 (F := Ideal) V c).flushed 3 t
      = ((cfg0.win 3).blk t).view.read (Elt Ideal) (layer0 (V c main_v0) (V c main_v1) (V c main_arg2)) := by
  show (cfg0.win 3).cut (grid0.coords t) ((dat0 (F := Ideal) V c).after 3 t) = _
  rw [after0_3]
  funext j
  obtain ⟨p, q, rfl⟩ : ∃ (p : Fin 256) (q : Fin 3072), j = ix2 p q := ⟨j 0, j 1, eq_ix2 j⟩
  rw [View.read_apply]
  refine (out0_3_apply (iblk0 V c 0 t) (iblk0 V c 1 t) (iblk0 V c 2 t) p q).trans ?_
  obtain ⟨hr, hc⟩ := emb0_3 t p q
  refine congrArg₂ (· + ·) (Finset.sum_congr rfl fun k _ => congrArg₂ (· * ·) ?_ ?_) ?_
  · exact iblk0_0_apply V c t (ix2 p k) _ hr rfl
  · refine (iblk0_1_apply V c t (ix2 q k)).trans (congrArg (V c main_v1 : S3072x1024.Idx → EReal) ?_)
    funext a; apply Fin.ext
    match a with
    | ⟨0, _⟩ => exact hc.symm
    | ⟨1, _⟩ => rfl
  · refine (iblk0_2_apply V c t (ix1 q)).trans (congrArg (V c main_arg2 : S3072.Idx → EReal) ?_)
    funext a; apply Fin.ext
    match a with
    | ⟨0, _⟩ => exact hc.symm

/-! ## The row blocks cover the output -/

/-- An entry of the output is in point t's block iff its row is one of the block's 256 rows. -/
theorem mem_blk0 (t : Fin cfg0.N) (i : S8192x3072.Idx) :
    i ∈ ((cfg0.win 3).blk t).view.set ↔ ∀ a : Fin 2, win0_3.index t a * S256x3072.size a ≤ (i a).val
      ∧ (i a).val < win0_3.index t a * S256x3072.size a + S256x3072.size a := by
  show i ∈ ((View.whole main_v3).slice (win0_3.rect t)).set ↔ _
  rw [View.set_slice_whole, Rect.mem_set_unit]
  exact Iff.rfl

/-- Row r of the output lies in the block of point r / 256, and every point writes its block back. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : grid0.N = 32 := N_0
  have ht : (i 0).val / 256 < grid0.N := by rw [hN]; omega
  obtain ⟨-, -, -, -, -, e5, e6⟩ := index0 ⟨(i 0).val / 256, ht⟩
  refine ⟨⟨(i 0).val / 256, ht⟩, flush0_3 _, ?_⟩
  rw [mem_blk0]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e5]; show (i 0).val / 256 * 256 ≤ (i 0).val ∧ (i 0).val < (i 0).val / 256 * 256 + 256; omega
  | ⟨1, _⟩ =>
    show win0_3.index ⟨(i 0).val / 256, ht⟩ (1 : Fin 2) * 3072 ≤ (i 1).val
      ∧ (i 1).val < win0_3.index ⟨(i 0).val / 256, ht⟩ (1 : Fin 2) * 3072 + 3072
    rw [e6]; omega

/-! ## The output array after the region -/

/-- After the 32 points the output array holds, at (i, j), row i of the input against row j of the weight matrix,
    plus the bias at j: the layer `layer0` of the three arrays the region finds. -/
theorem arr0_eq (c : Dev nD) :
    (dat0 (F := Ideal) V c).arrAt 3 cfg0.N = layer0 (V c main_v0) (V c main_v1) (V c main_arg2) :=
  (dat0 (F := Ideal) V c).arrAt_eq_of_cover 3 (layer0 (V c main_v0) (V c main_v1) (V c main_arg2))
    (fun t _ => flushed0_eq V c t) cover0

/-- The same, with the three arrays the region finds named: whatever they are, the output is their projection. -/
theorem arr0_eq_of (c : Dev nD) (x : S8192x1024.Idx → EReal) (w : S3072x1024.Idx → EReal) (b : S3072.Idx → EReal)
    (hx : V c main_v0 = x) (hw : V c main_v1 = w) (hb : V c main_arg2 = b) :
    ((dat0 (F := Ideal) V c).arrAt 3 cfg0.N : S8192x3072.Idx → EReal)
      = fun i => (∑ k : Fin 1024, x (ix2 (i 0) k) * w (ix2 (i 1) k)) + b (ix1 (i 1)) := by
  rw [arr0_eq V c, hx, hw, hb]
  rfl

end Cert.KernelIdeal.Hand

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«147643_j52802327937631_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibAttnRow.lean ====
/-
  One row of softmax attention over the extended reals, in the two arrangements the two programs use, and the law
  that joins them.

  For one query row, with scores s k (the row's inner product with key row k) and values v k (one column of the
  value rows), let M be the maximum of the scores and w k = exp (s k - M) the weights.

    fused:  (∑ k, w k * v k) / (∑ k, w k)       — weights applied first, ONE division by the total weight;
    plain:  ∑ k, (w k / (0 + ∑ j, w j)) * v k    — each weight normalised first (the scores divided by 1 and the
            maximum taken once more against its own starting value on the way).

  Moving the division across the sum is a distributive law, and it fails at infinities; where the scores and the
  values are real numbers and the row is not empty every quantity above is real and the total weight is at least
  e⁰ = 1 > 0, so the two agree (`plain_eq_fused`).
-/
import Idealize.ShloMosaic.PureOps.Ideal
import Idealize.ShloMosaic.PureOps.Ideal.Laws
import Mathlib.Data.Finset.Fold

noncomputable section

namespace Cert.LibAttnRow

open Idealize.ShloMosaic

variable {X n : ℕ}

/-- The score of key row `k`: the inner product of the query row with it. -/
def score (q : Fin X → EReal) (K : Fin n → Fin X → EReal) (k : Fin n) : EReal := ∑ x : Fin X, q x * K k x

/-- The maximum of the scores, folded from `init`. -/
def top (init : EReal) (s : Fin n → EReal) : EReal := (Finset.univ : Finset (Fin n)).fold max init s

/-- The weight of key row `k` against the maximum `M`. -/
def weight (M : EReal) (s : Fin n → EReal) (k : Fin n) : EReal := Ideal.exp (s k - M)

/-- Weights applied to the values first, then one division by the total weight. -/
def fused (init : EReal) (s v : Fin n → EReal) : EReal :=
  Ideal.div (∑ k : Fin n, weight (top init s) s k * v k) (∑ k : Fin n, weight (top init s) s k)

/-- The scores divided by `one`; the maximum taken against `init` once more; each weight divided by `zero` plus the
    total weight; then applied to the values. -/
def plain (init one zero : EReal) (s v : Fin n → EReal) : EReal :=
  ∑ k : Fin n,
    Ideal.div (weight (max init (top init fun j => Ideal.div (s j) one)) (fun j => Ideal.div (s j) one) k)
        (zero + ∑ k' : Fin n, weight (max init (top init fun j => Ideal.div (s j) one)) (fun j => Ideal.div (s j) one) k')
      * v k

/-! ## Real numbers inside the extended reals -/

/-- A finite sum of real numbers, taken in the extended reals, is the real sum. -/
theorem coe_sum {ι : Type*} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- Division by one changes nothing, at the infinities too. -/
theorem div_one (x : EReal) : Ideal.div x 1 = x := by
  rw [← EReal.coe_one, Ideal.div_coe one_ne_zero, one_div, inv_one, EReal.coe_one, mul_one]

/-- An inner product of real rows is real. -/
theorem score_real (q : Fin X → EReal) (K : Fin n → Fin X → EReal) (hq : ∀ x, ∃ r : ℝ, q x = r)
    (hK : ∀ k x, ∃ r : ℝ, K k x = r) (k : Fin n) : ∃ r : ℝ, score q K k = r := by
  choose q' hq' using hq
  choose K' hK' using hK
  refine ⟨∑ x : Fin X, q' x * K' k x, ?_⟩
  unfold score
  rw [← coe_sum]
  exact Finset.sum_congr rfl fun x _ => by rw [hq' x, hK' k x, EReal.coe_mul]

/-- The maximum of a non-empty row of real numbers, folded from -∞, is real. -/
theorem top_real (hn : 0 < n) (s : Fin n → ℝ) : ∃ M : ℝ, top ⊥ (fun k => (s k : EReal)) = M := by
  have hbot : top ⊥ (fun k => (s k : EReal)) ≠ ⊥ := by
    have h : ((s ⟨0, hn⟩ : ℝ) : EReal) ≤ top ⊥ (fun k => (s k : EReal)) :=
      (Finset.le_fold_max _).mpr (Or.inr ⟨⟨0, hn⟩, Finset.mem_univ _, le_rfl⟩)
    exact fun e => absurd (e ▸ h) (not_le.mpr (EReal.bot_lt_coe _))
  have htop : top ⊥ (fun k => (s k : EReal)) ≠ ⊤ :=
    ne_of_lt ((Finset.fold_max_lt _).mpr ⟨bot_lt_top, fun k _ => EReal.coe_lt_top _⟩)
  exact ⟨_, (EReal.coe_toReal htop hbot).symm⟩

/-! ## The law -/

/-- Over real scores and values, for a non-empty row, normalising each weight before applying it to the values is
    applying the weights and dividing once. -/
theorem plain_eq_fused_real (hn : 0 < n) (s v : Fin n → ℝ) :
    plain ⊥ 1 0 (fun k => (s k : EReal)) (fun k => (v k : EReal))
      = fused ⊥ (fun k => (s k : EReal)) (fun k => (v k : EReal)) := by
  obtain ⟨M, hM⟩ := top_real hn s
  have hw : ∀ k, weight (M : EReal) (fun k => (s k : EReal)) k = ((Real.exp (s k - M) : ℝ) : EReal) := fun k => by
    unfold weight; rw [← EReal.coe_sub, Ideal.exp_coe]
  have hLpos : 0 < ∑ k : Fin n, Real.exp (s k - M) :=
    Finset.sum_pos (fun k _ => Real.exp_pos _) ⟨⟨0, hn⟩, Finset.mem_univ _⟩
  have hL : (∑ k : Fin n, Real.exp (s k - M)) ≠ 0 := hLpos.ne'
  unfold plain fused
  simp only [div_one]
  rw [max_eq_right bot_le, hM]
  simp only [hw]
  rw [zero_add, coe_sum, Ideal.div_coe hL]
  have e1 : ∀ k : Fin n, Ideal.div ((Real.exp (s k - M) : ℝ) : EReal) ((∑ k : Fin n, Real.exp (s k - M) : ℝ) : EReal) * (v k : EReal)
      = ((Real.exp (s k - M) * (1 / ∑ k : Fin n, Real.exp (s k - M)) * v k : ℝ) : EReal) := fun k => by
    rw [Ideal.div_coe hL, ← EReal.coe_mul, ← EReal.coe_mul]
  have e2 : ∀ k : Fin n, ((Real.exp (s k - M) : ℝ) : EReal) * (v k : EReal) = ((Real.exp (s k - M) * v k : ℝ) : EReal) :=
    fun k => (EReal.coe_mul _ _).symm
  simp only [e1, e2]
  rw [coe_sum, coe_sum, ← EReal.coe_mul, Finset.sum_mul]
  exact congrArg _ (Finset.sum_congr rfl fun k _ => by ring)

/-- The same with the three constants and the rows given as extended reals known to be those values. -/
theorem plain_eq_fused {init one zero : EReal} (hi : init = ⊥) (ho : one = 1) (hz : zero = 0) (hn : 0 < n)
    (s v : Fin n → EReal) (hs : ∀ k, ∃ r : ℝ, s k = r) (hv : ∀ k, ∃ r : ℝ, v k = r) :
    plain init one zero s v = fused init s v := by
  choose s' hs' using hs
  choose v' hv' using hv
  obtain rfl : s = fun k => (s' k : EReal) := funext hs'
  obtain rfl : v = fun k => (v' k : EReal) := funext hv'
  subst hi ho hz
  exact plain_eq_fused_real hn s' v'

/-! ## The three words the programs spell these constants with -/

theorem ofBits_neg_inf : Ideal.ofBits .f32 0xFF800000#32 = ⊥ := by simp [Ideal.ofBits, Ideal.ieee]

theorem ofBits_one : Ideal.ofBits .f32 0x3F800000#32 = 1 := by
  simp [Ideal.ofBits, Ideal.ieee]
  rw [← EReal.coe_mul]
  norm_num

end Cert.LibAttnRow

end
-- ==== Proof.Pay1Head.lean ====
/-
  One attention head inside the attention body, read at an element.

  From a head's query rows q[1024, 64] and key rows k[1024, 64] the body forms the table of scaled scores
  (q · kᵀ) · c, takes each row's maximum (folded from -∞), exponentiates the distance below it, sums each row and
  divides: the table of normalised weights.  It then multiplies that table by the head's value rows v[1024, 64].
  The body does this twice with the same operations, once per head of the pair, so the operations are named here once,
  over any q, k, v, and read at an element over the extended reals:

    scores (s, t)  = (∑ x, q(s, x) · k(t, x)) · c
    weights (s, t) = exp (scores (s, t) - max over t' of scores (s, t'))
    probs (s, t)   = weights (s, t) / ∑ t', weights (s, t')
    context (s, d) = ∑ t, probs (s, t) · v(t, d).
-/
import proofs.«147643_j52802327937631_2_alg».proof.Proof.Data
import proofs.«147643_j52802327937631_2_alg».proof.Proof.LibMatmulNTAt
import proofs.«147643_j52802327937631_2_alg».proof.Proof.LibMatmulAt
import proofs.«147643_j52802327937631_2_alg».proof.Proof.LibRowReduce
import proofs.«147643_j52802327937631_2_alg».proof.Proof.LibAttnRow
import proofs.«147643_j52802327937631_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx

/-- The table of scaled scores of a head: q · kᵀ into a zero accumulator, times the scale. -/
def headScores (q k : FVec Ideal S1024x64 .bf16) : FVec Ideal S1024x1024 .f32 :=
  mulf (matmul dot_S1024x64_S1024x64_S1024x1024_1_1_0_0_n_n none q k (constant (F := Ideal) S1024x1024 .f32 0x00000000#32))
    (broadcast S1024x1024 (Scalar.ofBits (F := Ideal) .f32 0x3E000000#32))

/-- Each entry's exponential distance below its row's maximum. -/
def headWeights (sc : FVec Ideal S1024x1024 .f32) : FVec Ideal S1024x1024 .f32 :=
  exp (subf sc (broadcastTo S1024x1024
    (shapeCast S1024x1 (multiReduction (F := Ideal) .maximumf [1] S1024 sc 0xFF800000#32 reduces_S1024x1024_S1024 (.inl rfl) rfl)
      shapeCasts_S1024_S1024x1) broadcasts_S1024x1_S1024x1024))

/-- Each weight divided by its row's total. -/
def headProbs (q k : FVec Ideal S1024x64 .bf16) : FVec Ideal S1024x1024 .bf16 :=
  truncf .bf16 (divf (headWeights (headScores q k)) (broadcastTo S1024x1024
    (shapeCast S1024x1 (multiReduction (F := Ideal) .add [1] S1024 (headWeights (headScores q k)) 0x00000000#32
      reduces_S1024x1024_S1024 (.inl rfl) rfl) shapeCasts_S1024_S1024x1) broadcasts_S1024x1_S1024x1024)) bitsLt_bf16_f32

/-- The normalised weights applied to the value rows, into a zero accumulator. -/
def headContext (pr : FVec Ideal S1024x1024 .bf16) (v : FVec Ideal S1024x64 .bf16) : FVec Ideal S1024x64 .f32 :=
  matmul dot_S1024x1024_S1024x64_S1024x64_1_0_0_1_n_n none pr v (constant (F := Ideal) S1024x64 .f32 0x00000000#32)

/-- The scaled score of query row s against key row t. -/
theorem headScores_apply (q k : FVec Ideal S1024x64 .bf16) (s t : Fin 1024) :
    headScores q k (ix2 s t) = (∑ x : Fin 64, q (ix2 s x) * k (ix2 t x)) * Cert.Spec.scale := by
  unfold headScores
  rw [mulf_apply, Cert.LibMatmulNTAt.matmul_zero_apply _ rfl rfl rfl rfl rfl rfl, broadcast_apply]
  rfl

/-- A weight: the exponential of the entry's distance below the maximum of its row, folded from -∞. -/
theorem headWeights_apply (sc : FVec Ideal S1024x1024 .f32) (s t : Fin 1024) :
    headWeights sc (ix2 s t) = Ideal.exp (sc (ix2 s t) - Cert.Spec.rowMax fun t' => sc (ix2 s t')) := by
  unfold headWeights
  show FloatOps.exp (subf _ _ (ix2 s t)) = _
  rw [Ideal.exp_def, subf_apply, Cert.LibRowReduce.column_repeat_apply]
  refine congrArg (fun m => Ideal.exp (sc (ix2 s t) - m)) ((Cert.LibRowReduce.rowMax_apply sc _ _ _ _ s).trans ?_)
  rw [Ideal.ofBits_def, Cert.LibAttnRow.ofBits_neg_inf]
  rfl

/-- A normalised weight: the weight over the total of its row. -/
theorem headProbs_apply (q k : FVec Ideal S1024x64 .bf16) (s t : Fin 1024) :
    headProbs q k (ix2 s t)
      = Ideal.div (headWeights (headScores q k) (ix2 s t)) (∑ t' : Fin 1024, headWeights (headScores q k) (ix2 s t')) := by
  unfold headProbs
  rw [truncf_apply, divf_apply, Cert.LibRowReduce.column_repeat_apply]
  exact congrArg (Ideal.div _) (Cert.LibRowReduce.rowSum_apply _ _ _ _ _ s)

/-- The context: the row of normalised weights against a column of the value rows. -/
theorem headContext_apply (pr : FVec Ideal S1024x1024 .bf16) (v : FVec Ideal S1024x64 .bf16) (s : Fin 1024) (d : Fin 64) :
    headContext pr v (ix2 s d) = ∑ t : Fin 1024, pr (ix2 s t) * v (ix2 t d) := by
  unfold headContext
  rw [Cert.LibMatmulAt.matmul_zero_apply _ rfl rfl rfl rfl rfl rfl]

/-- One head's attention at (s, d), spelled out over the head's query, key and value rows. -/
theorem head_apply (q k v : FVec Ideal S1024x64 .bf16) (sc : Fin 1024 → EReal) (s : Fin 1024) (d : Fin 64)
    (hsc : ∀ t : Fin 1024, sc t = (∑ x : Fin 64, q (ix2 s x) * k (ix2 t x)) * Cert.Spec.scale) :
    headContext (headProbs q k) v (ix2 s d)
      = ∑ t : Fin 1024, Ideal.div (Ideal.exp (sc t - Cert.Spec.rowMax sc))
          (∑ t' : Fin 1024, Ideal.exp (sc t' - Cert.Spec.rowMax sc)) * v (ix2 t d) := by
  obtain rfl : sc = fun t => (∑ x : Fin 64, q (ix2 s x) * k (ix2 t x)) * Cert.Spec.scale := funext hsc
  rw [headContext_apply]
  simp only [headProbs_apply, headWeights_apply, headScores_apply]

end Cert.KernelIdeal.Hand

end
-- ==== Proof.LibConcatCols.lean ====
/-
  Two matrices laid side by side, read at an entry.

  The concatenation along the column axis of a `[K, C₁]` and a `[K, C₂]` array into `[K, D]` reads, at `(k, d)`,
  the first array at `(k, d)` when `d` is one of its columns, and the second at `(k, d − C₁)` otherwise. Stated with
  the column of the piece given and the column of the whole tied to it by an equation, so that both fit whatever way
  a program numbers its columns.
-/
import Idealize.ShloMosaic.Lib.Pipeline.Value
import Idealize.ShloMosaic.Lib.ValueIdx

namespace Cert.LibConcatCols

open Idealize.ShloMosaic Idealize.ShloMosaic.ValueIdx

variable {α : Type}

/-- Column `d` of the whole is column `c` of the LEFT piece (`d = c`): the whole at `(k, d)` is the left piece at
    `(k, c)`. -/
theorem concat_cols_left {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₁) (d : Fin D)
    (hd : d.val = c.val) :
    concatenate ⟨2, ![K, D]⟩ 1 [⟨⟨2, ![K, C₁]⟩, x₁⟩, ⟨⟨2, ![K, C₂]⟩, x₂⟩] h (ix2 k d) = x₁ (ix2 k c) :=
  concatenate_pair_apply_left 1 x₁ x₂ h (ix2 k d) rfl (ix2 k c) fun b =>
    match b with
    | ⟨0, _⟩ => rfl
    | ⟨1, _⟩ => hd.symm

/-- Column `d` of the whole is column `c` of the RIGHT piece (`d = C₁ + c`): the whole at `(k, d)` is the right piece
    at `(k, c)`. -/
theorem concat_cols_right {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₂) (d : Fin D)
    (hd : d.val = C₁ + c.val) :
    concatenate ⟨2, ![K, D]⟩ 1 [⟨⟨2, ![K, C₁]⟩, x₁⟩, ⟨⟨2, ![K, C₂]⟩, x₂⟩] h (ix2 k d) = x₂ (ix2 k c) :=
  concatenate_pair_apply_right 1 x₁ x₂ h (ix2 k d) rfl rfl (ix2 k c)
    (fun b hb =>
      match b, hb with
      | ⟨0, _⟩, _ => rfl
      | ⟨1, _⟩, hb => absurd rfl hb)
    (by show c.val + C₁ = d.val; omega)

end Cert.LibConcatCols
-- ==== Proof.Pay1.lean ====
/-
  The attention block, read at an element.

  At a grid point the body holds the query, key and value rows of a PAIR of heads: three [1, 1024, 128] blocks, head h
  of the pair in lanes h·64 .. h·64 + 63.  For each head it cuts the head's 64 lanes out of the three blocks, computes
  the head's attention (the scaled scores, each row's maximum, the exponentials, their row sums, the quotients, and
  the product with the value rows), and stores the two [1024, 64] results side by side.  So the element (0, s, h·64 + d)
  of what the one store leaves is head h's attention at (s, d):

    score k  = (∑ x, q(0, s, h·64 + x) · k(0, k, h·64 + x)) · c
    result   = ∑ k, (exp (score k - max score) / ∑ k', exp (score k' - max score)) · v(0, k, h·64 + d).
-/
import proofs.«147643_j52802327937631_2_alg».proof.Proof.Pay1Head
import proofs.«147643_j52802327937631_2_alg».proof.Proof.LibConcatCols
import proofs.«147643_j52802327937631_2_alg».proof.Proof.Origin

set_option maxRecDepth 16384

noncomputable section

namespace Cert.KernelIdeal.Hand

open Cert.KernelIdeal Cert.KernelIdeal.Gen Idealize.ShloMosaic Idealize.ShloMosaic.ValueIdx

/-- Lane d of head h of the pair: column h·64 + d of the block's 128. -/
def lane (h : Fin 2) (d : Fin 64) : Fin 128 := ⟨h.val * 64 + d.val, by omega⟩

theorem lane_val (h : Fin 2) (d : Fin 64) : (lane h d).val = h.val * 64 + d.val := rfl

/-- The scaled score of query row s against key row k in head h of the pair, off the query and key blocks. -/
def blkScore (x0 x1 : Vec Ideal S1x1024x128 .bf16) (h : Fin 2) (s k : Fin 1024) : EReal :=
  (∑ x : Fin 64, x0 (ix3 (0 : Fin 1) s (lane h x)) * x1 (ix3 (0 : Fin 1) k (lane h x))) * Cert.Spec.scale

/-- Head h's attention at (s, d), off the three blocks. -/
def blkAttn (x0 x1 x2 : Vec Ideal S1x1024x128 .bf16) (h : Fin 2) (s : Fin 1024) (d : Fin 64) : EReal :=
  ∑ k : Fin 1024, Ideal.div (Ideal.exp (blkScore x0 x1 h s k - Cert.Spec.rowMax (blkScore x0 x1 h s)))
      (∑ k' : Fin 1024, Ideal.exp (blkScore x0 x1 h s k' - Cert.Spec.rowMax (blkScore x0 x1 h s)))
    * x2 (ix3 (0 : Fin 1) k (lane h d))

/-! ## The three blocks seen as [1024, 128] arrays, and a head's lanes cut out of them -/

theorem k1_pay3_eq : k1_pay3 (F := Ideal) = k1_pay2 := rfl
theorem k1_pay4_eq : k1_pay4 (F := Ideal) = k1_pay2 := rfl

/-- The first head's lanes of a block: lane x of the cut is lane x of the block. -/
theorem cut_head0 (v : Vec Ideal S1x1024x128 .bf16) (s : Fin 1024) (x : Fin 64) :
    extractStridedSlice S1024x64 ![0, 0] (k1_pay2 v) slices_S1024x128_o0_0_S1024x64 (ix2 s x)
      = v (ix3 (0 : Fin 1) s (lane 0 x)) := by
  rw [slice2_axis1_apply 0 _ _ s x (lane 0 x) (by rw [lane_val]; show 0 * 64 + x.val = 0 + x.val; omega)]
  unfold k1_pay2
  rw [shapeCast_1ab_ab_apply]

/-- The second head's lanes of a block: lane x of the cut is lane 64 + x of the block. -/
theorem cut_head1 (v : Vec Ideal S1x1024x128 .bf16) (s : Fin 1024) (x : Fin 64) :
    extractStridedSlice S1024x64 ![0, 64] (k1_pay2 v) slices_S1024x128_o0_64_S1024x64 (ix2 s x)
      = v (ix3 (0 : Fin 1) s (lane 1 x)) := by
  rw [slice2_axis1_apply 64 _ _ s x (lane 1 x) (by rw [lane_val]; show 1 * 64 + x.val = 64 + x.val; omega)]
  unfold k1_pay2
  rw [shapeCast_1ab_ab_apply]

/-! ## The body's named parts are the head operations -/

theorem k1_pay5_eq (v0 v2 v4 : Vec Ideal S1x1024x128 .bf16) :
    k1_pay5 v0 v2 v4
      = headContext (headProbs (extractStridedSlice S1024x64 ![0, 0] (k1_pay2 v0) slices_S1024x128_o0_0_S1024x64)
          (extractStridedSlice S1024x64 ![0, 0] (k1_pay3 v2) slices_S1024x128_o0_0_S1024x64))
        (extractStridedSlice S1024x64 ![0, 0] (k1_pay4 v4) slices_S1024x128_o0_0_S1024x64) := rfl

theorem k1_pay7_eq (v0 v2 : Vec Ideal S1x1024x128 .bf16) :
    k1_pay7 v0 v2
      = headProbs (extractStridedSlice S1024x64 ![0, 64] (k1_pay2 v0) slices_S1024x128_o0_64_S1024x64)
          (extractStridedSlice S1024x64 ![0, 64] (k1_pay3 v2) slices_S1024x128_o0_64_S1024x64) := rfl

theorem k1_pay6_eq (v4 : Vec Ideal S1x1024x128 .bf16) :
    k1_pay6 v4 = extractStridedSlice S1024x64 ![0, 64] (k1_pay4 v4) slices_S1024x128_o0_64_S1024x64 := rfl

/-! ## The stored block -/

/-- What the one store leaves, as the two heads' contexts side by side. -/
theorem out1_3_eq (x0 x1 x2 : Vec Ideal S1x1024x128 .bf16) :
    out1_3 (F := Ideal) x0 x1 x2
      = shapeCast S1x1024x128 (truncf .bf16 (concatenate S1024x128 1
          [⟨S1024x64, k1_pay5 x0 x1 x2⟩, ⟨S1024x64, headContext (k1_pay7 x0 x1) (k1_pay6 x2)⟩]
          concatenates_S1024x64_S1024x64_S1024x128_d1) bitsLt_bf16_f32) shapeCasts_S1024x128_S1x1024x128 := by
  unfold out1_3
  rw [View.canon_unit_zero origin3]
  simp only [View.ld_unit_zero (S := S1x1024x128) origin3]
  rfl

/-- The first head of the pair. -/
theorem out1_3_head0 (x0 x1 x2 : Vec Ideal S1x1024x128 .bf16) (s : Fin 1024) (d : Fin 64) :
    out1_3 (F := Ideal) x0 x1 x2 (ix3 (0 : Fin 1) s (lane 0 d)) = blkAttn x0 x1 x2 0 s d := by
  rw [out1_3_eq, shapeCast_ab_1ab_apply, truncf_apply,
    Cert.LibConcatCols.concat_cols_left _ _ _ s d (lane 0 d) (by rw [lane_val]; show 0 * 64 + d.val = d.val; omega),
    k1_pay5_eq, k1_pay3_eq, k1_pay4_eq,
    head_apply _ _ _ (blkScore x0 x1 0 s) s d]
  · unfold blkAttn
    simp only [cut_head0]
  · intro t
    unfold blkScore
    simp only [cut_head0]

/-- The second head of the pair. -/
theorem out1_3_head1 (x0 x1 x2 : Vec Ideal S1x1024x128 .bf16) (s : Fin 1024) (d : Fin 64) :
    out1_3 (F := Ideal) x0 x1 x2 (ix3 (0 : Fin 1) s (lane 1 d)) = blkAttn x0 x1 x2 1 s d := by
  rw [out1_3_eq, shapeCast_ab_1ab_apply, truncf_apply,
    Cert.LibConcatCols.concat_cols_right _ _ _ s d (lane 1 d) (by rw [lane_val]; show 1 * 64 + d.val = 64 + d.val; omega),
    k1_pay7_eq, k1_pay6_eq, k1_pay3_eq, k1_pay4_eq,
    head_apply _ _ _ (blkScore x0 x1 1 s) s d]
  · unfold blkAttn
    simp only [cut_head1]
  · intro t
    unfold blkScore
    simp only [cut_head1]

/-- The attention block at (0, s, h·64 + d): head h's attention at (s, d). -/
theorem out1_3_apply (x0 x1 x2 : Vec Ideal S1x1024x128 .bf16) (h : Fin 2) (s : Fin 1024) (d : Fin 64) :
    out1_3 (F := Ideal) x0 x1 x2 (ix3 (0 : Fin 1) s (lane h d)) = blkAttn x0 x1 x2 h s d :=
  match h with
  | ⟨0, _⟩ => out1_3_head0 x0 x1 x2 s d
  | ⟨1, _⟩ => out1_3_head1 x0 x1 x2 s d

end Cert.KernelIdeal.Hand

end
-- ==== Proof.Block1.lean ====
/-
  The attention region's array after all sixty-four grid points.

  Point t ↔ (batch b, head pair p) reads three [1, 1024, 128] blocks of ONE array A[8, 1024, 3072] — batch b, all
  1024 positions, columns p·128.. (queries), 1024 + p·128.. (keys), 2048 + p·128.. (values) — and writes the block
  (b, all positions, columns p·128..) of the context array [8, 1024, 1024].  Head h of the pair at lane d sits at
  block column h·64 + d, that is at array column p·128 + h·64 + d = n·64 + d for the head n = 2p + h.  So what a point
  writes back is the block's read of ONE whole-array function, the attention of head j / 64 at lane j % 64 computed
  from the columns of A; the sixty-four blocks tile the context array.

  The attention is written here over an arbitrary g[b, s, o] in place of the projected array, with the same bodies as
  the specification's stages, so that it can be read off A before A is known to be the projection.
-/
import proofs.«147643_j52802327937631_2_alg».proof.Proof.Data
import proofs.«147643_j52802327937631_2_alg».proof.Proof.Pay1
import proofs.«147643_j52802327937631_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec (qcol kcol vcol headOf laneOf scale rowMax)

-- the core's buffer contents when the region is entered
variable (V : (c : Dev nD) → (b : Ref sig .tc) → Buf (Elt Ideal) ((c : Thread nD τ).loc b))

/-! ## The attention stages over an arbitrary projected array -/

/-- The scaled score of query row s against key row k, in head n of batch b. -/
def scoreG (g : Fin 8 → Fin 1024 → Fin 3072 → EReal) (b : Fin 8) (n : Fin 16) (s k : Fin 1024) : EReal :=
  (∑ d : Fin 64, g b s (qcol n d) * g b k (kcol n d)) * scale

/-- The weight of key row k for query row s. -/
def weightG (g : Fin 8 → Fin 1024 → Fin 3072 → EReal) (b : Fin 8) (n : Fin 16) (s k : Fin 1024) : EReal :=
  Ideal.exp (scoreG g b n s k - rowMax (scoreG g b n s))

/-- The normalised weight. -/
def probG (g : Fin 8 → Fin 1024 → Fin 3072 → EReal) (b : Fin 8) (n : Fin 16) (s k : Fin 1024) : EReal :=
  Ideal.div (weightG g b n s k) (∑ k' : Fin 1024, weightG g b n s k')

/-- One head's attention. -/
def attnG (g : Fin 8 → Fin 1024 → Fin 3072 → EReal) (b : Fin 8) (n : Fin 16) (s : Fin 1024) (d : Fin 64) : EReal :=
  ∑ k : Fin 1024, probG g b n s k * g b k (vcol n d)

/-- The context: the sixteen heads side by side. -/
def ctxG (g : Fin 8 → Fin 1024 → Fin 3072 → EReal) : Fin 8 → Fin 1024 → Fin 1024 → EReal :=
  fun b s j => attnG g b (headOf j) s (laneOf j)

/-- At the projected array these are the specification's stages. -/
theorem scoreG_qkv (x : Cert.Spec.S8x1024x1024.Idx → EReal) (w1 : Cert.Spec.S3072x1024.Idx → EReal) (b1 : Cert.Spec.S3072.Idx → EReal) :
    scoreG (Cert.Spec.qkv x w1 b1) = Cert.Spec.score x w1 b1 := rfl
theorem weightG_qkv (x : Cert.Spec.S8x1024x1024.Idx → EReal) (w1 : Cert.Spec.S3072x1024.Idx → EReal) (b1 : Cert.Spec.S3072.Idx → EReal) :
    weightG (Cert.Spec.qkv x w1 b1) = Cert.Spec.weight x w1 b1 := rfl
theorem probG_qkv (x : Cert.Spec.S8x1024x1024.Idx → EReal) (w1 : Cert.Spec.S3072x1024.Idx → EReal) (b1 : Cert.Spec.S3072.Idx → EReal) :
    probG (Cert.Spec.qkv x w1 b1) = Cert.Spec.prob x w1 b1 := rfl
theorem attnG_qkv (x : Cert.Spec.S8x1024x1024.Idx → EReal) (w1 : Cert.Spec.S3072x1024.Idx → EReal) (b1 : Cert.Spec.S3072.Idx → EReal) :
    attnG (Cert.Spec.qkv x w1 b1) = Cert.Spec.attn x w1 b1 := rfl
theorem ctxG_qkv (x : Cert.Spec.S8x1024x1024.Idx → EReal) (w1 : Cert.Spec.S3072x1024.Idx → EReal) (b1 : Cert.Spec.S3072.Idx → EReal) :
    ctxG (Cert.Spec.qkv x w1 b1) = Cert.Spec.ctx x w1 b1 := rfl

/-- The context array read off a projected array A[8, 1024, 3072]. -/
def attnArr (A : S8x1024x3072.Idx → EReal) : S8x1024x1024.Idx → EReal :=
  fun i => ctxG (fun b s o => A (ix3 b s o)) (i 0) (i 1) (i 2)

/-- The context array at coordinates. -/
theorem attnArr_apply (A : S8x1024x3072.Idx → EReal) (b : Fin 8) (s j : Fin 1024) :
    attnArr A (ix3 b s j) = ctxG (fun b s o => A (ix3 b s o)) b s j := rfl

/-! ## One block against the array -/

/-- A pair's attention off three blocks is a head's attention off the array, once each block entry the pair reads is
    the array entry of that head's query, key or value column. -/
theorem blkAttn_eq (x0 x1 x2 : Vec Ideal S1x1024x128 .bf16) (g : Fin 8 → Fin 1024 → Fin 3072 → EReal)
    (h : Fin 2) (s : Fin 1024) (d : Fin 64) (b' : Fin 8) (n' : Fin 16) (d' : Fin 64)
    (hq : ∀ x : Fin 64, x0 (ix3 (0 : Fin 1) s (lane h x)) = g b' s (qcol n' x))
    (hk : ∀ (k : Fin 1024) (x : Fin 64), x1 (ix3 (0 : Fin 1) k (lane h x)) = g b' k (kcol n' x))
    (hv : ∀ k : Fin 1024, x2 (ix3 (0 : Fin 1) k (lane h d)) = g b' k (vcol n' d')) :
    blkAttn x0 x1 x2 h s d = attnG g b' n' s d' := by
  have hs : blkScore x0 x1 h s = scoreG g b' n' s := funext fun k => by
    unfold blkScore scoreG
    exact congrArg (· * scale) (Finset.sum_congr rfl fun x _ => congrArg₂ (· * ·) (hq x) (hk k x))
  unfold blkAttn attnG probG weightG
  rw [hs]
  exact Finset.sum_congr rfl fun k _ => congrArg (_ * ·) (hv k)

/-- The printed index maps over the grid: the three input blocks sit in the output block's batch, at its head
    pair's columns in the query, key and value thirds. -/
theorem pair_facts1 : ∀ t : Fin cfg1.N,
    win1_0.index t (0 : Fin 3) = win1_3.index t (0 : Fin 3) ∧ win1_1.index t (0 : Fin 3) = win1_3.index t (0 : Fin 3)
    ∧ win1_2.index t (0 : Fin 3) = win1_3.index t (0 : Fin 3)
    ∧ win1_0.index t (1 : Fin 3) = 0 ∧ win1_1.index t (1 : Fin 3) = 0 ∧ win1_2.index t (1 : Fin 3) = 0
    ∧ win1_3.index t (1 : Fin 3) = 0
    ∧ win1_0.index t (2 : Fin 3) = win1_3.index t (2 : Fin 3) ∧ win1_1.index t (2 : Fin 3) = 8 + win1_3.index t (2 : Fin 3)
    ∧ win1_2.index t (2 : Fin 3) = 16 + win1_3.index t (2 : Fin 3)
    ∧ win1_3.index t (0 : Fin 3) ≤ 7 ∧ win1_3.index t (2 : Fin 3) ≤ 7 :=
  (by decide +kernel : ∀ t : Fin grid1.N, _)

/-- Every (batch, head pair) block of the context is some point's. -/
theorem pair_onto1 : ∀ (b p : Fin 8), ∃ t : Fin cfg1.N, win1_3.index t = ![b.val, 0, p.val] :=
  (by decide +kernel : ∀ (b p : Fin 8), ∃ t : Fin grid1.N, win1_3.index t = ![b.val, 0, p.val])

/-- At a point t, head h of the pair at (s, d), off the point's three blocks of A, is the context array of A at the
    array index under (0, s, h·64 + d) of the output block. -/
theorem block_attn1 (A : S8x1024x3072.Idx → EReal) (t : Fin cfg1.N) (h : Fin 2) (s : Fin 1024) (d : Fin 64) :
    blkAttn (fun y => A (((cfg1.win 0).blk t).view.emb y)) (fun y => A (((cfg1.win 1).blk t).view.emb y))
        (fun y => A (((cfg1.win 2).blk t).view.emb y)) h s d
      = attnArr A (((cfg1.win 3).blk t).view.emb (ix3 (0 : Fin 1) s (lane h d))) := by
  obtain ⟨e0, e1, e2, e3, e4, e5, e6, e7, e8, e9, e10, e11⟩ := pair_facts1 t
  have hh : h.val < 2 := h.isLt
  have hd : d.val < 64 := d.isLt
  have he : ((cfg1.win 3).blk t).view.emb (ix3 (0 : Fin 1) s (lane h d))
      = ix3 (⟨win1_3.index t (0 : Fin 3), by omega⟩ : Fin 8) s
          (⟨win1_3.index t (2 : Fin 3) * 128 + (h.val * 64 + d.val), by omega⟩ : Fin 1024) := by
    funext a; apply Fin.ext
    match a with
    | ⟨0, _⟩ => show win1_3.index t (0 : Fin 3) * 1 + 1 * 0 = win1_3.index t (0 : Fin 3); omega
    | ⟨1, _⟩ => show win1_3.index t (1 : Fin 3) * 1024 + 1 * s.val = s.val; omega
    | ⟨2, _⟩ => show win1_3.index t (2 : Fin 3) * 128 + 1 * (h.val * 64 + d.val) = win1_3.index t (2 : Fin 3) * 128 + (h.val * 64 + d.val); omega
  rw [he, attnArr_apply]
  refine blkAttn_eq _ _ _ _ h s d _ _ _ (fun x => ?_) (fun k x => ?_) (fun k => ?_)
  · have hx : x.val < 64 := x.isLt
    refine congrArg A ?_
    funext a; apply Fin.ext
    match a with
    | ⟨0, _⟩ => show win1_0.index t (0 : Fin 3) * 1 + 1 * 0 = win1_3.index t (0 : Fin 3); omega
    | ⟨1, _⟩ => show win1_0.index t (1 : Fin 3) * 1024 + 1 * s.val = s.val; omega
    | ⟨2, _⟩ => show win1_0.index t (2 : Fin 3) * 128 + 1 * (h.val * 64 + x.val)
        = (win1_3.index t (2 : Fin 3) * 128 + (h.val * 64 + d.val)) / 64 * 64 + x.val; omega
  · have hx : x.val < 64 := x.isLt
    refine congrArg A ?_
    funext a; apply Fin.ext
    match a with
    | ⟨0, _⟩ => show win1_1.index t (0 : Fin 3) * 1 + 1 * 0 = win1_3.index t (0 : Fin 3); omega
    | ⟨1, _⟩ => show win1_1.index t (1 : Fin 3) * 1024 + 1 * k.val = k.val; omega
    | ⟨2, _⟩ => show win1_1.index t (2 : Fin 3) * 128 + 1 * (h.val * 64 + x.val)
        = 1024 + ((win1_3.index t (2 : Fin 3) * 128 + (h.val * 64 + d.val)) / 64 * 64 + x.val); omega
  · refine congrArg A ?_
    funext a; apply Fin.ext
    match a with
    | ⟨0, _⟩ => show win1_2.index t (0 : Fin 3) * 1 + 1 * 0 = win1_3.index t (0 : Fin 3); omega
    | ⟨1, _⟩ => show win1_2.index t (1 : Fin 3) * 1024 + 1 * k.val = k.val; omega
    | ⟨2, _⟩ => show win1_2.index t (2 : Fin 3) * 128 + 1 * (h.val * 64 + d.val)
        = 2048 + ((win1_3.index t (2 : Fin 3) * 128 + (h.val * 64 + d.val)) / 64 * 64
          + (win1_3.index t (2 : Fin 3) * 128 + (h.val * 64 + d.val)) % 64); omega

/-- A lane of the block is lane l % 64 of head l / 64 of the pair. -/
theorem lane_div_mod (l : Fin 128) : lane ⟨l.val / 64, by omega⟩ ⟨l.val % 64, by omega⟩ = l :=
  Fin.ext (by show l.val / 64 * 64 + l.val % 64 = l.val; omega)

/-- What point t writes back is block t of the context array of the array the region finds. -/
theorem flushed1_eq (c : Dev nD) (t : Fin cfg1.N) :
    (dat1 V c).flushed 3 t = ((cfg1.win 3).blk t).view.read (Elt Ideal) (attnArr (V c main_v4)) := by
  show (cfg1.win 3).cut (grid1.coords t) ((dat1 V c).after 3 t) = _
  rw [after1_3]
  funext j
  obtain ⟨u, s, l, rfl⟩ : ∃ (u : Fin 1) (s : Fin 1024) (l : Fin 128), j = ix3 u s l := ⟨j 0, j 1, j 2, eq_ix3 j⟩
  obtain rfl : u = 0 := Subsingleton.elim _ _
  rw [← lane_div_mod l]
  refine (out1_3_apply (iblk1 V c 0 t) (iblk1 V c 1 t) (iblk1 V c 2 t) _ s _).trans ?_
  exact block_attn1 (V c main_v4) t _ s _

/-- An index of the array is in point t's block iff each coordinate is in the block's range on its axis. -/
theorem mem_blk1 (t : Fin cfg1.N) (i : S8x1024x1024.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v5).slice (win1_3.rect t)).set ↔ _
  rw [View.set_slice_whole, Rect.mem_set_unit]
  exact Iff.rfl

/-- The sixty-four blocks cover the context array: (b, s, j) lies in the block of batch b and head pair j / 128. -/
theorem cover1 (i : S8x1024x1024.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  obtain ⟨t, ht⟩ := pair_onto1 ⟨(i 0).val, by omega⟩ ⟨(i 2).val / 128, by omega⟩
  have q0 : win1_3.index t (0 : Fin 3) = (i 0).val := congrFun ht 0
  have q1 : win1_3.index t (1 : Fin 3) = 0 := congrFun ht 1
  have q2 : win1_3.index t (2 : Fin 3) = (i 2).val / 128 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The context array after the region: the attention read off the array the region finds. -/
theorem arr1_eq (c : Dev nD) : (dat1 (F := Ideal) V c).arrAt 3 cfg1.N = attnArr (V c main_v4) :=
  (dat1 V c).arrAt_eq_of_cover 3 (attnArr (V c main_v4)) (fun t _ => flushed1_eq V c t) cover1

end Cert.KernelIdeal.Hand

end
-- ==== Proof.Pay2.lean ====
/-
  The output projection's block, read at an element.

  At a grid point the body multiplies a block of 512 rows of the context array by the transpose of the whole second
  weight matrix [1024, 1024] (both operands contracted on their second axis) into a zero accumulator and adds the
  bias, a vector of 1024 entries set up as one row and repeated down the 512 rows.  Over the extended reals the
  element (p, q) of what the one store leaves is therefore  ∑ k, x(p, k) · W(q, k) + b(q).
-/
import proofs.«147643_j52802327937631_2_alg».proof.Proof.Data
import proofs.«147643_j52802327937631_2_alg».proof.Proof.LibMatmulNTAt
import proofs.«147643_j52802327937631_2_alg».proof.Proof.Origin
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx

/-- The output projection's stored block at (p, q): row p of the block against row q of the weight matrix, plus
    the bias at q. -/
theorem out2_3_apply (x0 : Vec Ideal S512x1024 .bf16) (x1 : Vec Ideal S1024x1024 .bf16) (x2 : Vec Ideal S1024 .f32)
    (p : Fin 512) (q : Fin 1024) :
    out2_3 (F := Ideal) x0 x1 x2 (ix2 p q) = (∑ k : Fin 1024, x0 (ix2 p k) * x1 (ix2 q k)) + x2 (ix1 q) := by
  unfold out2_3
  rw [View.canon_unit_zero origin2]
  simp only [View.ld_unit_zero (S := S512x1024) origin2, View.ld_unit_zero (S := S1024x1024) origin2,
    View.ld_unit_zero (S := S1024) origin1]
  unfold k2_pay1
  rw [addf_apply, shapeCast_self, shapeCast_self,
    Cert.LibMatmulNTAt.matmul_zero_apply _ rfl rfl rfl rfl rfl rfl, broadcastTo_1b_ab_apply, shapeCast_a_1a_apply]

end Cert.KernelIdeal.Hand

end
-- ==== Proof.Block2.lean ====
/-
  The output projection's array after all sixteen grid points.

  Point t of the region reads rows 512·t .. 512·t + 511 of the context array, the whole second weight matrix and
  the whole bias, and writes the same rows of the result.  The block a point writes back is the dense layer of its
  row block, element by element; a row of the block is a row of the array, so the write-back is the block's read of
  ONE whole-array function: row i₀, column i₁ ↦ ∑ k, ctx(i₀, k) · W(i₁, k) + b(i₁).  The sixteen row blocks tile the
  array, so the array ends holding that function.
-/
import proofs.«147643_j52802327937631_2_alg».proof.Proof.Data
import proofs.«147643_j52802327937631_2_alg».proof.Proof.Pay2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the core's buffer contents when the region is entered
variable (V : (c : Dev nD) → (b : Ref sig .tc) → Buf (Elt Ideal) ((c : Thread nD τ).loc b))

/-- The dense layer on whole arrays: row i₀ of `a` against row i₁ of `w`, plus the bias at i₁. -/
def layer2 (a : S8192x1024.Idx → EReal) (w : S1024x1024.Idx → EReal) (b : S1024.Idx → EReal) : S8192x1024.Idx → EReal :=
  fun i => (∑ k : Fin 1024, a (ix2 (i 0) k) * w (ix2 (i 1) k)) + b (ix1 (i 1))

/-- The dense layer at coordinates. -/
theorem layer2_apply (a : S8192x1024.Idx → EReal) (w : S1024x1024.Idx → EReal) (b : S1024.Idx → EReal)
    (r : Fin 8192) (q : Fin 1024) :
    layer2 a w b (ix2 r q) = (∑ k : Fin 1024, a (ix2 r k) * w (ix2 q k)) + b (ix1 q) := rfl

/-- The printed index maps over the grid: the input row block moves with the output row block, every other block
    index is zero. -/
theorem rowBlock_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) ≤ 15 :=
  (by decide +kernel : ∀ t : Fin grid2.N, _)

/-- Every row block of the result is some point's. -/
theorem rowBlock_onto2 : ∀ r : Fin 16, ∃ t : Fin cfg2.N, win2_3.index t = ![r.val, 0] :=
  (by decide +kernel : ∀ r : Fin 16, ∃ t : Fin grid2.N, win2_3.index t = ![r.val, 0])

/-- At a point t the dense layer of the point's blocks, element (p, q), is the dense layer of the whole arrays at the
    array index under (p, q) of the output block: the rows of the input block are the same rows of the array. -/
theorem block_layer2 (A : S8192x1024.Idx → EReal) (W : S1024x1024.Idx → EReal) (B : S1024.Idx → EReal)
    (t : Fin cfg2.N) (p : Fin 512) (q : Fin 1024) :
    (∑ k : Fin 1024, A (((cfg2.win 0).blk t).view.emb (ix2 p k)) * W (((cfg2.win 1).blk t).view.emb (ix2 q k)))
        + B (((cfg2.win 2).blk t).view.emb (ix1 q))
      = layer2 A W B (((cfg2.win 3).blk t).view.emb (ix2 p q)) := by
  obtain ⟨e0, e1, e2, e3, e4, e5, e6⟩ := rowBlock_facts2 t
  show _ = (∑ k : Fin 1024, A (ix2 (((cfg2.win 3).blk t).view.emb (ix2 p q) 0) k)
        * W (ix2 (((cfg2.win 3).blk t).view.emb (ix2 p q) 1) k))
      + B (ix1 (((cfg2.win 3).blk t).view.emb (ix2 p q) 1))
  have h0 : ∀ k : Fin 1024, ((cfg2.win 0).blk t).view.emb (ix2 p k) = ix2 (((cfg2.win 3).blk t).view.emb (ix2 p q) 0) k := fun k => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have h1 : ∀ k : Fin 1024, ((cfg2.win 1).blk t).view.emb (ix2 q k) = ix2 (((cfg2.win 3).blk t).view.emb (ix2 p q) 1) k := fun k => by
    funext a; apply Fin.ext
    match a with
    | ⟨0, _⟩ => show win2_1.index t (0 : Fin 2) * 1024 + 1 * q.val = win2_3.index t (1 : Fin 2) * 1024 + 1 * q.val; omega
    | ⟨1, _⟩ => show win2_1.index t (1 : Fin 2) * 1024 + 1 * k.val = k.val; omega
  have h2 : ((cfg2.win 2).blk t).view.emb (ix1 q) = ix1 (((cfg2.win 3).blk t).view.emb (ix2 p q) 1) := by
    funext a; apply Fin.ext
    match a with
    | ⟨0, _⟩ => show win2_2.index t (0 : Fin 1) * 1024 + 1 * q.val = win2_3.index t (1 : Fin 2) * 1024 + 1 * q.val; omega
  rw [h2]
  exact congrArg (· + _) (Finset.sum_congr rfl fun k _ => congrArg₂ (· * ·) (congrArg A (h0 k)) (congrArg W (h1 k)))

/-- What point t writes back is block t of the dense layer of the arrays the region finds. -/
theorem flushed2_eq (c : Dev nD) (t : Fin cfg2.N) :
    (dat2 V c).flushed 3 t
      = ((cfg2.win 3).blk t).view.read (Elt Ideal) (layer2 (V c main_v6) (V c main_v2) (V c main_arg4)) := by
  show (cfg2.win 3).cut (grid2.coords t) ((dat2 V c).after 3 t) = _
  rw [after2_3]
  funext j
  obtain ⟨p, q, rfl⟩ : ∃ (p : Fin 512) (q : Fin 1024), j = ix2 p q := ⟨j 0, j 1, eq_ix2 j⟩
  refine (out2_3_apply (iblk2 V c 0 t) (iblk2 V c 1 t) (iblk2 V c 2 t) p q).trans ?_
  exact block_layer2 (V c main_v6) (V c main_v2) (V c main_arg4) t p q

/-- An index of the array is in point t's block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v7).slice (win2_3.rect t)).set ↔ _
  rw [View.set_slice_whole, Rect.mem_set_unit]
  exact Iff.rfl

/-- The sixteen row blocks cover the array: row r lies in block r / 512. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := rowBlock_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the region: the dense layer of the arrays the region finds. -/
theorem arr2_eq (c : Dev nD) :
    (dat2 (F := Ideal) V c).arrAt 3 cfg2.N = layer2 (V c main_v6) (V c main_v2) (V c main_arg4) :=
  (dat2 V c).arrAt_eq_of_cover 3 (layer2 (V c main_v6) (V c main_v2) (V c main_arg4))
    (fun t _ => flushed2_eq V c t) cover2

end Cert.KernelIdeal.Hand

end
-- ==== Proof.Compose.lean ====
/-
  The program's result array is the specification's function of the five arguments.

  The buffers' contents are followed boundary by boundary.  The first host stretch flattens the hidden states to
  [8192, 1024] (row b·1024 + s is position s of batch b) and changes the two weight matrices' format, which on the
  extended reals changes nothing.  The input projection leaves the dense layer of the flattened rows; cut back to
  [8, 1024, 3072] it is the specification's projected array.  The attention region leaves the context of that
  array, which is the specification's context.  Flattened again, projected by the second dense layer and cut back
  to [8, 1024, 1024], it is the specification's result.
-/
import proofs.«147643_j52802327937631_2_alg».proof.Proof.Run
import proofs.«147643_j52802327937631_2_alg».proof.Proof.Spec
import proofs.«147643_j52802327937631_2_alg».proof.Proof.Block0
import proofs.«147643_j52802327937631_2_alg».proof.Proof.Block1
import proofs.«147643_j52802327937631_2_alg».proof.Proof.Block2
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.StableHlo
open Idealize.ShloMosaic.Pipeline (Dat Cfg Window cellOf)
open Cert.KernelIdeal Cert.KernelIdeal.Gen
open Idealize.ShloMosaic.ValueIdx

/-! ## Flattening the batch and position axes, on arrays of extended reals -/

/-- Row b·1024 + s of a flattened array. -/
def row (b : Fin 8) (s : Fin 1024) : Fin 8192 := ⟨b.val * 1024 + s.val, by omega⟩

/-- The flattened [8192, 1024] array at (b·1024 + s, k) is the [8, 1024, 1024] array at (b, s, k). -/
theorem flatten_apply (x : S8x1024x1024.Idx → EReal) (b : Fin 8) (s k : Fin 1024) :
    shapeCast S8192x1024 x shapeCasts_S8x1024x1024_S8192x1024 (ix2 (row b s) k) = x (ix3 b s k) :=
  shapeCast_apply x _ _ _ (by
    rw [Shape.rowMajor_val_three, Shape.rowMajor_val_two]
    show (b.val * 1024 + s.val) * 1024 + k.val = (b.val * 1024 + s.val) * 1024 + k.val
    rfl)

/-- The [8, 1024, 3072] array cut out of an [8192, 3072] one, at (b, s, o), is the latter at (b·1024 + s, o). -/
theorem unflatten3072_apply (y : S8192x3072.Idx → EReal) (b : Fin 8) (s : Fin 1024) (o : Fin 3072) :
    shapeCast S8x1024x3072 y shapeCasts_S8192x3072_S8x1024x3072 (ix3 b s o) = y (ix2 (row b s) o) :=
  shapeCast_apply y _ _ _ (by
    rw [Shape.rowMajor_val_three, Shape.rowMajor_val_two]
    show (b.val * 1024 + s.val) * 3072 + o.val = (b.val * 1024 + s.val) * 3072 + o.val
    rfl)

/-- The [8, 1024, 1024] array cut out of an [8192, 1024] one, at (b, s, o), is the latter at (b·1024 + s, o). -/
theorem unflatten1024_apply (y : S8192x1024.Idx → EReal) (b : Fin 8) (s o : Fin 1024) :
    shapeCast S8x1024x1024 y shapeCasts_S8192x1024_S8x1024x1024 (ix3 b s o) = y (ix2 (row b s) o) :=
  shapeCast_apply y _ _ _ (by
    rw [Shape.rowMajor_val_three, Shape.rowMajor_val_two]
    show (b.val * 1024 + s.val) * 1024 + o.val = (b.val * 1024 + s.val) * 1024 + o.val
    rfl)

/-- The first dense layer on the flattened rows, cut back to three axes, is the specification's projected array. -/
theorem projArr_eq (x : S8x1024x1024.Idx → EReal) (w : S3072x1024.Idx → EReal) (b : S3072.Idx → EReal) :
    shapeCast S8x1024x3072 (layer0 (shapeCast S8192x1024 x shapeCasts_S8x1024x1024_S8192x1024) w b) shapeCasts_S8192x3072_S8x1024x3072
      = fun i => Cert.Spec.qkv x w b (i 0) (i 1) (i 2) := by
  funext i
  obtain ⟨b', s, o, rfl⟩ : ∃ (b' : Fin 8) (s : Fin 1024) (o : Fin 3072), i = ix3 b' s o := ⟨i 0, i 1, i 2, eq_ix3 i⟩
  rw [unflatten3072_apply, layer0_apply]
  simp only [flatten_apply]
  rfl

/-- The context of the specification's projected array is the specification's context. -/
theorem attnArr_qkv (x : S8x1024x1024.Idx → EReal) (w : S3072x1024.Idx → EReal) (b : S3072.Idx → EReal) :
    attnArr (fun i => Cert.Spec.qkv x w b (i 0) (i 1) (i 2)) = fun i => Cert.Spec.ctx x w b (i 0) (i 1) (i 2) := rfl

/-- The second dense layer on the flattened rows of a context array, cut back to three axes. -/
theorem outArr_eq (cx : S8x1024x1024.Idx → EReal) (w2 : S1024x1024.Idx → EReal) (b2 : S1024.Idx → EReal) :
    shapeCast S8x1024x1024 (layer2 (shapeCast S8192x1024 cx shapeCasts_S8x1024x1024_S8192x1024) w2 b2) shapeCasts_S8192x1024_S8x1024x1024
      = fun i => (∑ h : Fin 1024, cx (ix3 (i 0) (i 1) h) * w2 (ix2 (i 2) h)) + b2 (ix1 (i 2)) := by
  funext i
  obtain ⟨b', s, o, rfl⟩ : ∃ (b' : Fin 8) (s o : Fin 1024), i = ix3 b' s o := ⟨i 0, i 1, i 2, eq_ix3 i⟩
  rw [unflatten1024_apply, layer2_apply]
  simp only [flatten_apply]

/-- The whole composition on arrays: flatten, project, cut, attend, flatten, project, cut. -/
theorem composed_eq (x : S8x1024x1024.Idx → EReal) (w1 : S3072x1024.Idx → EReal) (b1 : S3072.Idx → EReal)
    (w2 : S1024x1024.Idx → EReal) (b2 : S1024.Idx → EReal) :
    shapeCast S8x1024x1024
        (layer2 (shapeCast S8192x1024
          (attnArr (shapeCast S8x1024x3072 (layer0 (shapeCast S8192x1024 x shapeCasts_S8x1024x1024_S8192x1024) w1 b1)
            shapeCasts_S8192x3072_S8x1024x3072))
          shapeCasts_S8x1024x1024_S8192x1024) w2 b2)
        shapeCasts_S8192x1024_S8x1024x1024
      = Cert.Spec.out x w1 b1 w2 b2 := by
  rw [projArr_eq, attnArr_qkv, outArr_eq]
  rfl

/-! ## The buffers' contents, boundary by boundary -/

variable (m : (ℓ : Loc nD τ sig) → Buf (Elt Ideal) ℓ) (c : Dev nD)

/-- After the first host stretch the flattened input is the flattened first argument. -/
theorem V1_v0 : V1 m c main_v0 = shapeCast S8192x1024 (m ((c : Thread nD τ).loc main_arg0)) shapeCasts_S8x1024x1024_S8192x1024 := by
  show StableHlo.after hostOps0 (W0 m c) (Proc.devRef .tc main_v0) = _
  after_results
  rfl

/-- The first weight matrix in the narrower format is, on the extended reals, the second argument. -/
theorem V1_v1 : V1 m c main_v1 = m ((c : Thread nD τ).loc main_arg1) := by
  show StableHlo.after hostOps0 (W0 m c) (Proc.devRef .tc main_v1) = _
  after_results
  rfl

/-- The first bias is the third argument. -/
theorem V1_arg2 : V1 m c main_arg2 = m ((c : Thread nD τ).loc main_arg2) := by
  show StableHlo.after hostOps0 (W0 m c) (Proc.devRef .tc main_arg2) = _
  after_results

/-- After the input projection its output array is the dense layer of the flattened first argument. -/
theorem W2_v3 : W2 m c (Proc.devRef .tc main_v3)
    = layer0 (shapeCast S8192x1024 (m ((c : Thread nD τ).loc main_arg0)) shapeCasts_S8x1024x1024_S8192x1024)
        (m ((c : Thread nD τ).loc main_arg1)) (m ((c : Thread nD τ).loc main_arg2)) := by
  have e : W2 m c (Proc.devRef .tc main_v3) = (dat0 (V1 m) c).arrAt 3 cfg0.N := W2_arr m c 3
  rw [e, arr0_eq (V1 m) c, V1_v0, V1_v1, V1_arg2]

/-- After the second host stretch the projected array with three axes. -/
theorem V3_v4 : V3 m c main_v4 = shapeCast S8x1024x3072
      (layer0 (shapeCast S8192x1024 (m ((c : Thread nD τ).loc main_arg0)) shapeCasts_S8x1024x1024_S8192x1024)
        (m ((c : Thread nD τ).loc main_arg1)) (m ((c : Thread nD τ).loc main_arg2)))
      shapeCasts_S8192x3072_S8x1024x3072 := by
  show StableHlo.after hostOps1 (W2 m c) (Proc.devRef .tc main_v4) = _
  after_results
  rw [W2_v3]
  rfl

/-- After the attention region the context array is the context of the projected array. -/
theorem W4_v5' : W4 m c (Proc.devRef .tc main_v5) = attnArr (shapeCast S8x1024x3072
      (layer0 (shapeCast S8192x1024 (m ((c : Thread nD τ).loc main_arg0)) shapeCasts_S8x1024x1024_S8192x1024)
        (m ((c : Thread nD τ).loc main_arg1)) (m ((c : Thread nD τ).loc main_arg2)))
      shapeCasts_S8192x3072_S8x1024x3072) := by
  rw [W4_v5, arr1_eq (V3 m) c, V3_v4]

/-- After the third host stretch the flattened context. -/
theorem V5_v6 : V5 m c main_v6 = shapeCast S8192x1024 (attnArr (shapeCast S8x1024x3072
      (layer0 (shapeCast S8192x1024 (m ((c : Thread nD τ).loc main_arg0)) shapeCasts_S8x1024x1024_S8192x1024)
        (m ((c : Thread nD τ).loc main_arg1)) (m ((c : Thread nD τ).loc main_arg2)))
      shapeCasts_S8192x3072_S8x1024x3072)) shapeCasts_S8x1024x1024_S8192x1024 := by
  show StableHlo.after hostOps2 (W4 m c) (Proc.devRef .tc main_v6) = _
  after_results
  rw [W4_v5']
  rfl

/-- The second weight matrix in the narrower format, untouched since the first host stretch, is the fourth argument. -/
theorem V5_v2 : V5 m c main_v2 = m ((c : Thread nD τ).loc main_arg3) := by
  show StableHlo.after hostOps2 (W4 m c) (Proc.devRef .tc main_v2) = _
  after_results
  rw [W4_of_ne m c main_v2 (by decide)]
  show StableHlo.after hostOps1 (W2 m c) (Proc.devRef .tc main_v2) = _
  after_results
  rw [W2_of_ne m c main_v2 (by decide)]
  show StableHlo.after hostOps0 (W0 m c) (Proc.devRef .tc main_v2) = _
  after_results
  rfl

/-- The second bias, untouched, is the fifth argument. -/
theorem V5_arg4 : V5 m c main_arg4 = m ((c : Thread nD τ).loc main_arg4) := by
  show StableHlo.after hostOps2 (W4 m c) (Proc.devRef .tc main_arg4) = _
  after_results
  rw [W4_of_ne m c main_arg4 (by decide)]
  show StableHlo.after hostOps1 (W2 m c) (Proc.devRef .tc main_arg4) = _
  after_results
  rw [W2_of_ne m c main_arg4 (by decide)]
  show StableHlo.after hostOps0 (W0 m c) (Proc.devRef .tc main_arg4) = _
  after_results

/-- After the output projection its output array is the second dense layer of the flattened context. -/
theorem W6_v7 : W6 m c (Proc.devRef .tc main_v7)
    = layer2 (shapeCast S8192x1024 (attnArr (shapeCast S8x1024x3072
        (layer0 (shapeCast S8192x1024 (m ((c : Thread nD τ).loc main_arg0)) shapeCasts_S8x1024x1024_S8192x1024)
          (m ((c : Thread nD τ).loc main_arg1)) (m ((c : Thread nD τ).loc main_arg2)))
        shapeCasts_S8192x3072_S8x1024x3072)) shapeCasts_S8x1024x1024_S8192x1024)
      (m ((c : Thread nD τ).loc main_arg3)) (m ((c : Thread nD τ).loc main_arg4)) := by
  have e : W6 m c (Proc.devRef .tc main_v7) = (dat2 (V5 m) c).arrAt 3 cfg2.N := W6_arr m c 3
  rw [e, arr2_eq (V5 m) c, V5_v6, V5_v2, V5_arg4]

/-- At the last boundary the result buffer holds the specification's result of the five arguments as launched. -/
theorem W7_main_v8 : W7 m c (Proc.devRef .tc main_v8)
    = Cert.Spec.out (m ((c : Thread nD τ).loc main_arg0)) (m ((c : Thread nD τ).loc main_arg1))
        (m ((c : Thread nD τ).loc main_arg2)) (m ((c : Thread nD τ).loc main_arg3)) (m ((c : Thread nD τ).loc main_arg4)) := by
  show StableHlo.after hostOps3 (W6 m c) (Proc.devRef .tc main_v8) = _
  after_results
  rw [W6_v7]
  exact composed_eq _ _ _ _ _

end Cert.KernelIdeal.Hand

end
-- ==== Proof.RefRead.lean ====
/-
  The reference's run read back one operation at a time (the generated read-at-an-index lemmas), re-exported for the
  modules that state what the reference computes.
-/
import proofs.«147643_j52802327937631_2_alg».proof.Proof.Gen.ReferenceIdeal.Run
import proofs.«147643_j52802327937631_2_alg».proof.Proof.Gen.ReferenceIdeal.Read
-- ==== Proof.RefSpecQkv.lean ====
/-
  The reference's first stages read at coordinates: the projected array is the specification's dense layer, and the
  three slices of it, cut into sixteen heads of 64 lanes and with the head axis moved in front of the position axis,
  are its query, key and value columns.

  A row-major reshape of [8, 1024, 1024] to [8, 1024, 16, 64] sends (b, s, n, d) to (b, s, n·64 + d); the transpose
  swaps the two middle axes; the slice starting at column c adds c to the last coordinate.
-/
import proofs.«147643_j52802327937631_2_alg».proof.Proof.RefRead
import proofs.«147643_j52802327937631_2_alg».proof.Proof.Spec

noncomputable section

namespace Cert.ReferenceIdeal.RefSpec

open Cert.ReferenceIdeal Cert.ReferenceIdeal.Gen Cert.ReferenceIdeal.Read Idealize.ShloMosaic Idealize.ShloMosaic.ValueIdx

variable (x0 : (⟨S8x1024x1024, .f32⟩ : BufTy).Contents (Elt Ideal)) (x1 : (⟨S3072x1024, .f32⟩ : BufTy).Contents (Elt Ideal))
  (x2 : (⟨S3072, .f32⟩ : BufTy).Contents (Elt Ideal))

/-- The projection plus its bias, at (b, s, o), is the dense layer's element. -/
theorem v3_at (b : Fin 8) (s : Fin 1024) (o : Fin 3072) :
    val_main_v3 (F := Ideal) x0 x1 x2 (ix3 b s o) = Cert.Spec.qkv x0 x1 x2 b s o := by
  rw [val_main_v3_apply, val_main_v0_apply, val_main_v2_apply, val_main_v1_apply]
  have e0 : ∀ k : Fin 1024, lidx_main_v0 (ix3 b s o) k = ix3 b s k := fun k => funext fun a => Fin.ext (by
    match a with | ⟨0, _⟩ => rfl | ⟨1, _⟩ => rfl | ⟨2, _⟩ => rfl)
  have e1 : ∀ k : Fin 1024, ridx_main_v0 (ix3 b s o) k = ix2 o k := fun k => funext fun a => Fin.ext (by
    match a with | ⟨0, _⟩ => rfl | ⟨1, _⟩ => rfl)
  have e2 : idx_main_v1 (idx_main_v2 (ix3 b s o)) = ix1 o := funext fun a => Fin.ext (by
    match a with | ⟨0, _⟩ => rfl)
  simp only [e0, e1, e2, Ideal.addf_def]
  rfl

/-- The query array at (b, n, s, d) is column n·64 + d of the dense layer at (b, s). -/
theorem v8_at (b : Fin 8) (n : Fin 16) (s : Fin 1024) (d : Fin 64) :
    val_main_v8 (F := Ideal) x0 x1 x2 (ix4 b n s d) = Cert.Spec.qkv x0 x1 x2 b s (Cert.Spec.qcol n d) := by
  rw [val_main_v8_apply, val_main_v7_apply, val_main_v4_apply]
  have e : idx_main_v4 (idx_main_v7 (idx_main_v8 (ix4 b n s d))) = ix3 b s (Cert.Spec.qcol n d) := funext fun a => Fin.ext (by
    have hb := b.isLt; have hs := s.isLt; have hn := n.isLt; have hd := d.isLt
    match a with
    | ⟨0, _⟩ => show (((b.val * 1024 + s.val) * 16 + n.val) * 64 + d.val) / 1048576 = b.val; omega
    | ⟨1, _⟩ => show (((b.val * 1024 + s.val) * 16 + n.val) * 64 + d.val) / 1024 % 1024 = s.val; omega
    | ⟨2, _⟩ => show (((b.val * 1024 + s.val) * 16 + n.val) * 64 + d.val) % 1024 = n.val * 64 + d.val; omega)
  rw [e, v3_at]

/-- The key array at (b, n, s, d) is column 1024 + n·64 + d of the dense layer at (b, s). -/
theorem v10_at (b : Fin 8) (n : Fin 16) (s : Fin 1024) (d : Fin 64) :
    val_main_v10 (F := Ideal) x0 x1 x2 (ix4 b n s d) = Cert.Spec.qkv x0 x1 x2 b s (Cert.Spec.kcol n d) := by
  rw [val_main_v10_apply, val_main_v9_apply, val_main_v5_apply]
  have e : idx_main_v5 (idx_main_v9 (idx_main_v10 (ix4 b n s d))) = ix3 b s (Cert.Spec.kcol n d) := funext fun a => Fin.ext (by
    have hb := b.isLt; have hs := s.isLt; have hn := n.isLt; have hd := d.isLt
    match a with
    | ⟨0, _⟩ => show (((b.val * 1024 + s.val) * 16 + n.val) * 64 + d.val) / 1048576 = b.val; omega
    | ⟨1, _⟩ => show (((b.val * 1024 + s.val) * 16 + n.val) * 64 + d.val) / 1024 % 1024 = s.val; omega
    | ⟨2, _⟩ => show 1024 + (((b.val * 1024 + s.val) * 16 + n.val) * 64 + d.val) % 1024 = 1024 + (n.val * 64 + d.val); omega)
  rw [e, v3_at]

/-- The value array at (b, n, s, d) is column 2048 + n·64 + d of the dense layer at (b, s). -/
theorem v12_at (b : Fin 8) (n : Fin 16) (s : Fin 1024) (d : Fin 64) :
    val_main_v12 (F := Ideal) x0 x1 x2 (ix4 b n s d) = Cert.Spec.qkv x0 x1 x2 b s (Cert.Spec.vcol n d) := by
  rw [val_main_v12_apply, val_main_v11_apply, val_main_v6_apply]
  have e : idx_main_v6 (idx_main_v11 (idx_main_v12 (ix4 b n s d))) = ix3 b s (Cert.Spec.vcol n d) := funext fun a => Fin.ext (by
    have hb := b.isLt; have hs := s.isLt; have hn := n.isLt; have hd := d.isLt
    match a with
    | ⟨0, _⟩ => show (((b.val * 1024 + s.val) * 16 + n.val) * 64 + d.val) / 1048576 = b.val; omega
    | ⟨1, _⟩ => show (((b.val * 1024 + s.val) * 16 + n.val) * 64 + d.val) / 1024 % 1024 = s.val; omega
    | ⟨2, _⟩ => show 2048 + (((b.val * 1024 + s.val) * 16 + n.val) * 64 + d.val) % 1024 = 2048 + (n.val * 64 + d.val); omega)
  rw [e, v3_at]

end Cert.ReferenceIdeal.RefSpec

end
-- ==== Proof.RefSpecAttn.lean ====
/-
  The reference's attention stages read at coordinates: for batch b, head n and query row s the scaled inner
  products against the key rows are the specification's scores, their running maximum from -∞ (taken once more against -∞,
  which changes nothing) its row maximum, the exponentials of the differences its weights, their sum from 0 the
  row's total weight, the quotients its normalised weights, and the product with the head's value rows its
  attention.
-/
import proofs.«147643_j52802327937631_2_alg».proof.Proof.RefSpecQkv
import Idealize.ShloMosaic.PureOps.Reduce

noncomputable section

namespace Cert.ReferenceIdeal.RefSpec

open Cert.ReferenceIdeal Cert.ReferenceIdeal.Gen Cert.ReferenceIdeal.Read Idealize.ShloMosaic Idealize.ShloMosaic.ValueIdx

variable (x0 : (⟨S8x1024x1024, .f32⟩ : BufTy).Contents (Elt Ideal)) (x1 : (⟨S3072x1024, .f32⟩ : BufTy).Contents (Elt Ideal))
  (x2 : (⟨S3072, .f32⟩ : BufTy).Contents (Elt Ideal))

/-- The f32 word of -∞ is the bottom of the extended reals. -/
theorem ofBits_neg_inf : Ideal.ofBits .f32 0xFF800000#32 = (⊥ : EReal) := by simp [Ideal.ofBits, Ideal.ieee]

/-- The scaled scores at (b, n, s, k). -/
theorem v15_at (b : Fin 8) (n : Fin 16) (s k : Fin 1024) :
    val_main_v15 (F := Ideal) x0 x1 x2 (ix4 b n s k) = Cert.Spec.score x0 x1 x2 b n s k := by
  rw [val_main_v15_apply, val_main_v13_apply, val_main_v14_apply, val_main_cst_apply]
  have el : ∀ d : Fin 64, lidx_main_v13 (ix4 b n s k) d = ix4 b n s d := fun d => funext fun a => Fin.ext (by
    match a with | ⟨0, _⟩ => rfl | ⟨1, _⟩ => rfl | ⟨2, _⟩ => rfl | ⟨3, _⟩ => rfl)
  have er : ∀ d : Fin 64, ridx_main_v13 (ix4 b n s k) d = ix4 b n k d := fun d => funext fun a => Fin.ext (by
    match a with | ⟨0, _⟩ => rfl | ⟨1, _⟩ => rfl | ⟨2, _⟩ => rfl | ⟨3, _⟩ => rfl)
  simp only [el, er, v8_at, v10_at]
  rfl

/-- Row (b, n, s) of the four-axis score array with the key coordinate k put back on the last axis. -/
theorem lift_ix3 (h : S8x16x1024x1024.Reduces [3] S8x16x1024) (b : Fin 8) (n : Fin 16) (s : Fin 1024)
    (k : Fin (S8x16x1024x1024.size 3)) : h.lift (ix3 b n s) k = ix4 b n s (⟨k.val, k.isLt⟩ : Fin 1024) := by
  funext c; apply Fin.ext
  fin_cases c <;> rfl

/-- The maximum over the key axis, folded from -∞, at (b, n, s). -/
theorem v16_at (b : Fin 8) (n : Fin 16) (s : Fin 1024) :
    val_main_v16 (F := Ideal) x0 x1 x2 (ix3 b n s) = Cert.Spec.rowMax (Cert.Spec.score x0 x1 x2 b n s) := by
  have h : S8x16x1024x1024.Reduces [3] S8x16x1024 := by decide
  unfold val_main_v16
  rw [Host.reduce_eq_fold_single FloatOps.maximumf _ _ Facts₀.reducesTo_S8x16x1024x1024_S8x16x1024_d3 h Facts₀.h_S_]
  have hf : (val_main_v15 (F := Ideal) x0 x1 x2 ∘ h.lift (ix3 b n s)) = fun k : Fin 1024 => Cert.Spec.score x0 x1 x2 b n s k :=
    funext fun k => by
      show val_main_v15 (F := Ideal) x0 x1 x2 (h.lift (ix3 b n s) k) = _
      rw [lift_ix3, v15_at]
      rfl
  have hi : val_main_cst_0 (F := Ideal) (Shape.Idx.first Facts₀.h_S_) = (⊥ : EReal) := by
    rw [val_main_cst_0_apply]; exact ofBits_neg_inf
  rw [hi]
  exact congrArg (fun f => Finset.fold max (⊥ : EReal) f (Finset.univ : Finset (Fin 1024))) hf

/-- Taking the maximum once more against -∞ leaves the row maximum. -/
theorem v18_at (b : Fin 8) (n : Fin 16) (s : Fin 1024) :
    val_main_v18 (F := Ideal) x0 x1 x2 (ix3 b n s) = Cert.Spec.rowMax (Cert.Spec.score x0 x1 x2 b n s) := by
  rw [val_main_v18_apply, val_main_v17_apply, val_main_cst_1_apply, v16_at]
  show max (Ideal.ofBits .f32 0xFF800000#32) _ = _
  rw [ofBits_neg_inf]
  exact max_eq_right bot_le

/-- The weights at (b, n, s, k). -/
theorem v22_at (b : Fin 8) (n : Fin 16) (s k : Fin 1024) :
    val_main_v22 (F := Ideal) x0 x1 x2 (ix4 b n s k) = Cert.Spec.weight x0 x1 x2 b n s k := by
  rw [val_main_v22_apply, val_main_v21_apply, val_main_v20_apply, val_main_v19_apply]
  have e : idx_main_v19 (idx_main_v20 (ix4 b n s k)) = ix3 b n s := funext fun a => Fin.ext (by
    match a with | ⟨0, _⟩ => rfl | ⟨1, _⟩ => rfl | ⟨2, _⟩ => rfl)
  rw [e, v18_at, v15_at]
  rfl

/-- The total weight of row (b, n, s): the sum from 0 is the plain sum. -/
theorem v23_at (b : Fin 8) (n : Fin 16) (s : Fin 1024) :
    val_main_v23 (F := Ideal) x0 x1 x2 (ix3 b n s) = ∑ k : Fin 1024, Cert.Spec.weight x0 x1 x2 b n s k := by
  rw [val_main_v23_apply, val_main_cst_2_apply]
  have e : ∀ k : Fin 1024, idx_main_v23 (ix3 b n s) k = ix4 b n s k := fun k => funext fun a => Fin.ext (by
    match a with | ⟨0, _⟩ => rfl | ⟨1, _⟩ => rfl | ⟨2, _⟩ => rfl | ⟨3, _⟩ => rfl)
  simp only [e, v22_at, Ideal.ofBits_def, Ideal.ofBits_zero_f32, zero_add]

/-- The normalised weights at (b, n, s, k). -/
theorem v26_at (b : Fin 8) (n : Fin 16) (s k : Fin 1024) :
    val_main_v26 (F := Ideal) x0 x1 x2 (ix4 b n s k) = Cert.Spec.prob x0 x1 x2 b n s k := by
  rw [val_main_v26_apply, val_main_v25_apply, val_main_v24_apply]
  have e : idx_main_v24 (idx_main_v25 (ix4 b n s k)) = ix3 b n s := funext fun a => Fin.ext (by
    match a with | ⟨0, _⟩ => rfl | ⟨1, _⟩ => rfl | ⟨2, _⟩ => rfl)
  rw [e, v23_at, v22_at]
  rfl

/-- One head's attention at (b, n, s, d). -/
theorem v27_at (b : Fin 8) (n : Fin 16) (s : Fin 1024) (d : Fin 64) :
    val_main_v27 (F := Ideal) x0 x1 x2 (ix4 b n s d) = Cert.Spec.attn x0 x1 x2 b n s d := by
  rw [val_main_v27_apply]
  have el : ∀ k : Fin 1024, lidx_main_v27 (ix4 b n s d) k = ix4 b n s k := fun k => funext fun a => Fin.ext (by
    match a with | ⟨0, _⟩ => rfl | ⟨1, _⟩ => rfl | ⟨2, _⟩ => rfl | ⟨3, _⟩ => rfl)
  have er : ∀ k : Fin 1024, ridx_main_v27 (ix4 b n s d) k = ix4 b n k d := fun k => funext fun a => Fin.ext (by
    match a with | ⟨0, _⟩ => rfl | ⟨1, _⟩ => rfl | ⟨2, _⟩ => rfl | ⟨3, _⟩ => rfl)
  simp only [el, er, v26_at, v12_at]
  rfl

end Cert.ReferenceIdeal.RefSpec

end
-- ==== Proof.RefSpecOut.lean ====
/-
  The reference's last stages and the whole: moving the head axis back behind the position axis and flattening the
  sixteen heads of 64 lanes into 1024 columns puts head j / 64, lane j % 64 at column j — the specification's context —,
  and the output projection plus its bias is its result. So the array the reference returns is the specification's
  function of the five arguments.
-/
import proofs.«147643_j52802327937631_2_alg».proof.Proof.RefSpecAttn

noncomputable section

namespace Cert.ReferenceIdeal.RefSpec

open Cert.ReferenceIdeal Cert.ReferenceIdeal.Gen Cert.ReferenceIdeal.Read Idealize.ShloMosaic Idealize.ShloMosaic.ValueIdx

variable (x0 : (⟨S8x1024x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The context at (b, s, j): head j / 64 at lane j % 64. -/
theorem v29_at (b : Fin 8) (s j : Fin 1024) :
    val_main_v29 (F := Ideal) x0 x1 x2 (ix3 b s j) = Cert.Spec.ctx x0 x1 x2 b s j := by
  rw [val_main_v29_apply, val_main_v28_apply]
  have e : idx_main_v28 (idx_main_v29 (ix3 b s j)) = ix4 b (Cert.Spec.headOf j) s (Cert.Spec.laneOf j) := funext fun a => Fin.ext (by
    have hb := b.isLt; have hs := s.isLt; have hj := j.isLt
    match a with
    | ⟨0, _⟩ => show ((b.val * 1024 + s.val) * 1024 + j.val) / 1048576 = b.val; omega
    | ⟨1, _⟩ => show ((b.val * 1024 + s.val) * 1024 + j.val) / 64 % 16 = j.val / 64; omega
    | ⟨2, _⟩ => show ((b.val * 1024 + s.val) * 1024 + j.val) / 1024 % 1024 = s.val; omega
    | ⟨3, _⟩ => show ((b.val * 1024 + s.val) * 1024 + j.val) % 64 = j.val % 64; omega)
  rw [e, v27_at]
  rfl

/-- The array the reference returns is the specification's result, as functions of the five argument arrays. -/
theorem ref_eq : val_main_v33 (F := Ideal) x0 x1 x2 x3 x4 = Cert.Spec.out x0 x1 x2 x3 x4 := by
  funext i
  obtain ⟨b, s, o, rfl⟩ : ∃ (b : Fin 8) (s o : Fin 1024), i = ix3 b s o := ⟨i 0, i 1, i 2, eq_ix3 i⟩
  rw [val_main_v33_apply, val_main_v30_apply, val_main_v32_apply, val_main_v31_apply]
  have el : ∀ k : Fin 1024, lidx_main_v30 (ix3 b s o) k = ix3 b s k := fun k => funext fun a => Fin.ext (by
    match a with | ⟨0, _⟩ => rfl | ⟨1, _⟩ => rfl | ⟨2, _⟩ => rfl)
  have er : ∀ k : Fin 1024, ridx_main_v30 (ix3 b s o) k = ix2 o k := fun k => funext fun a => Fin.ext (by
    match a with | ⟨0, _⟩ => rfl | ⟨1, _⟩ => rfl)
  have e2 : idx_main_v31 (idx_main_v32 (ix3 b s o)) = ix1 o := funext fun a => Fin.ext (by
    match a with | ⟨0, _⟩ => rfl)
  simp only [el, er, e2, v29_at, Ideal.addf_def]
  rfl

/-- The same about the term the reference's run leaves in its result buffer: it is the specification's result of
    the five argument arrays as the run found them. -/
theorem ref_run_eq (m : (ℓ : Loc nD τ sig) → Buf (Elt Ideal) ℓ) (c : Dev nD) :
    Cert.ReferenceIdeal.Value.res_main_v33 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (val_main_v33_eq (F := Ideal) m c).trans (ref_eq _ _ _ _ _)

end Cert.ReferenceIdeal.RefSpec

end
-- ==== Proof.lean ====
/-
  Multi-head attention in three kernel regions — the input projection on row blocks, softmax attention per batch and
  pair of heads reading three lane blocks of the packed projection array, the output projection on row blocks —
  against the plain array program (one product per projection, the heads split by a reshape and a transposition,
  softmax as maximum, exponential of the difference, sum and quotient).

  On the extended reals both compute, index by index,
    out(b,s,o) = Σ_h ctx(b,s,h)·W₂(o,h) + b₂(o),   ctx(b,s,n·64+d) = Σ_k p_n(s,k)·v_n(k,d),
    p_n(s,k) = exp(σ_n(s,k) − max_k σ_n(s,k)) / Σ_k' exp(σ_n(s,k') − max_k σ_n(s,k')),   σ_n(s,k) = (Σ_d q_n(s,d)·k_n(k,d))·(1/8),
  with q, k, v the three thirds of x·W₁ᵀ + b₁.  The two programs differ only in the order in which the same sums are
  taken and in where a head's lanes sit, so no finiteness of the inputs is used.

  The frames: the run of the three regions as segments between the host stretches, at either float instance.  The
  value: each region's output array as one function of the arrays it finds, composed through the reshapes, is the
  specification; the reference's run read back operation by operation is the same specification.
-/
import proofs.«147643_j52802327937631_2_alg».proof.Defs
import proofs.«147643_j52802327937631_2_alg».proof.Proof.Gen.Kernel
import proofs.«147643_j52802327937631_2_alg».proof.Proof.Gen.KernelIdeal
import proofs.«147643_j52802327937631_2_alg».proof.Proof.Gen.ReferenceIdeal
import proofs.«147643_j52802327937631_2_alg».proof.Proof.Gen.Pre_finite_inputs
import proofs.«147643_j52802327937631_2_alg».proof.Proof.KRunArgs
import proofs.«147643_j52802327937631_2_alg».proof.Proof.RunArgs
import proofs.«147643_j52802327937631_2_alg».proof.Proof.Compose
import proofs.«147643_j52802327937631_2_alg».proof.Proof.RefSpecOut
import Idealize.ShloMosaic.Adequacy
import Idealize.ShloMosaic.Init

noncomputable section

namespace Cert.Proof

open Idealize.ShloMosaic Idealize.ShloMosaic.TcCoe Idealize.SL.Sem

namespace Claims

/-- The word-level program runs to the end and leaves its arguments as launched: every unscoped buffer ends at the
    last boundary's contents, and no host operation or region writes an argument. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W7_main_arg0 m c),
     (h c _ (Cert.Kernel.Hand.mem_uc Cert.Kernel.main_arg1 (by decide))).trans (Cert.Kernel.Hand.W7_main_arg1 m c),
     (h c _ (Cert.Kernel.Hand.mem_uc Cert.Kernel.main_arg2 (by decide))).trans (Cert.Kernel.Hand.W7_main_arg2 m c),
     (h c _ (Cert.Kernel.Hand.mem_uc Cert.Kernel.main_arg3 (by decide))).trans (Cert.Kernel.Hand.W7_main_arg3 m c),
     (h c _ (Cert.Kernel.Hand.mem_uc Cert.Kernel.main_arg4 (by decide))).trans (Cert.Kernel.Hand.W7_main_arg4 m c)⟩)
    (Cert.Kernel.Hand.run_all (F := Bits) m ρ)

/-- The same of the idealized program. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W7_main_arg0 m c),
     (h c _ (Cert.KernelIdeal.Hand.mem_uc Cert.KernelIdeal.main_arg1 (by decide))).trans (Cert.KernelIdeal.Hand.W7_main_arg1 m c),
     (h c _ (Cert.KernelIdeal.Hand.mem_uc Cert.KernelIdeal.main_arg2 (by decide))).trans (Cert.KernelIdeal.Hand.W7_main_arg2 m c),
     (h c _ (Cert.KernelIdeal.Hand.mem_uc Cert.KernelIdeal.main_arg3 (by decide))).trans (Cert.KernelIdeal.Hand.W7_main_arg3 m c),
     (h c _ (Cert.KernelIdeal.Hand.mem_uc Cert.KernelIdeal.main_arg4 (by decide))).trans (Cert.KernelIdeal.Hand.W7_main_arg4 m c)⟩)
    (Cert.KernelIdeal.Hand.run_all (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of the arguments in their result arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono (fun r h c =>
      ⟨(h c _ (Cert.KernelIdeal.Hand.mem_uc Cert.KernelIdeal.main_v8 (by decide))).trans (Cert.KernelIdeal.Hand.W7_main_v8 m c),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefSpec.ref_run_eq m' c, (hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
